-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x128 .f32) (main_arg9 : FVec F S128 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) (main_arg6 : FVec F S64x256 .f32) (main_arg7 : FVec F S256 .f32) (main_arg8 : FVec F S256x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 130
  | .vmem => 40
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x64, .f32⟩
  | 5 => ⟨S64, .f32⟩
  | 6 => ⟨S64x256, .f32⟩
  | 7 => ⟨S256, .f32⟩
  | 8 => ⟨S256x128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .bf16⟩
  | 47 => ⟨S128x256, .bf16⟩
  | 48 => ⟨S50000x256, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .bf16⟩
  | 68 => ⟨S256x64, .bf16⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x64, .f32⟩
  | 79 => ⟨S850000x1, .f32⟩
  | 80 => ⟨S850000x64, .f32⟩
  | 81 => ⟨S850000x64, .f32⟩
  | 82 => ⟨S_, .f32⟩
  | 83 => ⟨S50000x64, .f32⟩
  | 84 => ⟨S850000x1, .i32⟩
  | 85 => ⟨S50000x64, .f32⟩
  | 86 => ⟨S1x64, .f32⟩
  | 87 => ⟨S50000x64, .f32⟩
  | 88 => ⟨S50000x64, .bf16⟩
  | 89 => ⟨S64x256, .bf16⟩
  | 90 => ⟨S50000x256, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x256, .f32⟩
  | 100 => ⟨S850000x1, .f32⟩
  | 101 => ⟨S850000x256, .f32⟩
  | 102 => ⟨S850000x256, .f32⟩
  | 103 => ⟨S_, .f32⟩
  | 104 => ⟨S50000x256, .f32⟩
  | 105 => ⟨S850000x1, .i32⟩
  | 106 => ⟨S50000x256, .f32⟩
  | 107 => ⟨S1x256, .f32⟩
  | 108 => ⟨S50000x256, .f32⟩
  | 109 => ⟨S50000x256, .bf16⟩
  | 110 => ⟨S256x128, .bf16⟩
  | 111 => ⟨S50000x128, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x1, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .bf16⟩
  | .local _ .vmem, ⟨11, _⟩ => ⟨S5000x256, .bf16⟩
  | .local _ .vmem, ⟨12, _⟩ => ⟨S256x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .bf16⟩
  | .local _ .vmem, ⟨21, _⟩ => ⟨S5000x64, .bf16⟩
  | .local _ .vmem, ⟨22, _⟩ => ⟨S64x256, .bf16⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S5000x256, .bf16⟩
  | .local _ .vmem, ⟨31, _⟩ => ⟨S5000x256, .bf16⟩
  | .local _ .vmem, ⟨32, _⟩ => ⟨S256x128, .bf16⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_14 : Ref sig .tc := ⟨.hbm, 112, rfl⟩
abbrev main_v86 : Ref sig .tc := ⟨.hbm, 113, rfl⟩
abbrev main_v87 : Ref sig .tc := ⟨.hbm, 114, rfl⟩
abbrev main_c_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_16 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x256_S5000x256_1_0_0_1_n_n_wf : DotDims.WF S5000x64 S64x256 S5000x256 [1] [0] [0] [1] [] []
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .bf16 = 32 ∨ (Rect.block (s := S50000x64) S5000x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .bf16 = 32 ∨ (Rect.block (s := S64x256) S64x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .bf16 = 32 ∨ (Rect.block (s := S50000x256) S5000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .bf16 = 32 ∨ (Rect.block (s := S256x128) S256x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v83) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v98) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x64, .f32⟩
  | 5 => ⟨S64, .f32⟩
  | 6 => ⟨S64x256, .f32⟩
  | 7 => ⟨S256, .f32⟩
  | 8 => ⟨S256x128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x64, .f32⟩
  | 79 => ⟨S850000x1, .f32⟩
  | 80 => ⟨S850000x64, .f32⟩
  | 81 => ⟨S850000x64, .f32⟩
  | 82 => ⟨S_, .f32⟩
  | 83 => ⟨S50000x64, .f32⟩
  | 84 => ⟨S850000x1, .i32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x256, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x256, .f32⟩
  | 102 => ⟨S850000x1, .f32⟩
  | 103 => ⟨S850000x256, .f32⟩
  | 104 => ⟨S850000x256, .f32⟩
  | 105 => ⟨S_, .f32⟩
  | 106 => ⟨S50000x256, .f32⟩
  | 107 => ⟨S850000x1, .i32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call2_cst : Ref sig .tc := ⟨.hbm, 112, rfl⟩
abbrev main_call2_v0 : Ref sig .tc := ⟨.hbm, 113, rfl⟩
abbrev main_v82 : Ref sig .tc := ⟨.hbm, 114, rfl⟩
abbrev main_v83 : Ref sig .tc := ⟨.hbm, 115, rfl⟩
abbrev main_c_14 : Ref sig .tc := ⟨.hbm, 116, rfl⟩
abbrev main_v84 : Ref sig .tc := ⟨.hbm, 117, rfl⟩
abbrev main_v85 : Ref sig .tc := ⟨.hbm, 118, rfl⟩
abbrev main_c_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x256_S50000x256_1_0_0_1_n_n_wf : DotDims.WF S50000x64 S64x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.Carry.lean ====
/-
  What the host stretches and the regions leave alone. The kernel's program runs eight regions among stretches of host
  operations; the contents of the device's buffers at each of the sixteen boundaries is a fold over the launch memory.
  The first stretch computes, from the edge list alone, the source and destination index arrays (the edges followed by
  one self-loop per node) and the symmetric normalisation weight of every edge; these are the reference's own first
  operations, term for term. Nothing after the first stretch writes those three arrays or any argument array, so at
  every later boundary they hold what they held at the first.
-/
import proofs.«156801_j31748398252155_1_alg».proof.Proof.Gen.KernelIdeal.Frame
import proofs.«156801_j31748398252155_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import proofs.«156801_j31748398252155_1_alg».proof.Proof.LibConcatenateSimp

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

attribute [local congr] Cert.LibConcatenateSimp.concatenate2_congr

/-! ## The first boundary -/

/-- The source index of every edge, self-loops appended: the reference's array. -/
theorem W1_src : W1 m ρ c (Proc.devRef .tc main_v3) = Cert.ReferenceIdeal.Read.val_main_v3 (F := Ideal) x1 := by
  show StableHlo.after hostOps0 (W0 m ρ c) (Proc.devRef .tc main_v3) = _
  after_results_simp
  rfl

/-- The destination index of every edge, self-loops appended. -/
theorem W1_dst : W1 m ρ c (Proc.devRef .tc main_v6) = Cert.ReferenceIdeal.Read.val_main_v6 (F := Ideal) x1 := by
  show StableHlo.after hostOps0 (W0 m ρ c) (Proc.devRef .tc main_v6) = _
  after_results_simp
  rfl

set_option maxRecDepth 200000 in
/-- The weight of every edge: the inverse square roots of the two end nodes' degrees, multiplied. -/
theorem W1_norm : W1 m ρ c (Proc.devRef .tc main_v28) = Cert.ReferenceIdeal.Read.val_main_v28 (F := Ideal) x1 := by
  show StableHlo.after hostOps0 (W0 m ρ c) (Proc.devRef .tc main_v28) = _
  after_results_simp
  rfl

/-- The node features and the first weight matrix enter the first product as they are: over the extended reals a change
    of float format is the identity. -/
theorem W1_x : W1 m ρ c (Proc.devRef .tc main_v29) = x0 := by
  show StableHlo.after hostOps0 (W0 m ρ c) (Proc.devRef .tc main_v29) = _
  after_results_simp
  rfl
theorem W1_w : W1 m ρ c (Proc.devRef .tc main_v30) = x2 := by
  show StableHlo.after hostOps0 (W0 m ρ c) (Proc.devRef .tc main_v30) = _
  after_results_simp
  rfl

theorem W1_arg3 : W1 m ρ c (Proc.devRef .tc main_arg3) = x3 := by
  show StableHlo.after hostOps0 (W0 m ρ c) (Proc.devRef .tc main_arg3) = _
  after_results_simp
theorem W1_arg4 : W1 m ρ c (Proc.devRef .tc main_arg4) = x4 := by
  show StableHlo.after hostOps0 (W0 m ρ c) (Proc.devRef .tc main_arg4) = _
  after_results_simp
theorem W1_arg5 : W1 m ρ c (Proc.devRef .tc main_arg5) = x5 := by
  show StableHlo.after hostOps0 (W0 m ρ c) (Proc.devRef .tc main_arg5) = _
  after_results_simp
theorem W1_arg6 : W1 m ρ c (Proc.devRef .tc main_arg6) = x6 := by
  show StableHlo.after hostOps0 (W0 m ρ c) (Proc.devRef .tc main_arg6) = _
  after_results_simp
theorem W1_arg7 : W1 m ρ c (Proc.devRef .tc main_arg7) = x7 := by
  show StableHlo.after hostOps0 (W0 m ρ c) (Proc.devRef .tc main_arg7) = _
  after_results_simp
theorem W1_arg8 : W1 m ρ c (Proc.devRef .tc main_arg8) = x8 := by
  show StableHlo.after hostOps0 (W0 m ρ c) (Proc.devRef .tc main_arg8) = _
  after_results_simp
theorem W1_arg9 : W1 m ρ c (Proc.devRef .tc main_arg9) = x9 := by
  show StableHlo.after hostOps0 (W0 m ρ c) (Proc.devRef .tc main_arg9) = _
  after_results_simp

/-! ## The buffers nothing writes after the first stretch -/

/-- The two index arrays, the edge weights, and the arguments the later layers read. -/
def kept : List (Ref sig .tc) := [main_v3, main_v6, main_v28, main_arg3, main_arg4, main_arg5, main_arg6, main_arg7, main_arg8, main_arg9]

set_option hygiene false in
local macro "split_kept" h:ident : tactic =>
  `(tactic| (simp only [kept, List.mem_cons, List.not_mem_nil, or_false] at $h:ident
             rcases $h:ident with rfl | rfl | rfl | rfl | rfl | rfl | rfl | rfl | rfl | rfl))

/-- Region 0 stages and writes only its own three arrays. -/
theorem step2 {b : Ref sig .tc} (hb : b ∈ kept) : W2 m ρ c (Proc.devRef .tc b) = W1 m ρ c (Proc.devRef .tc b) := by
  split_kept hb <;> exact W2_of_ne m ρ c _ (by decide)
theorem keep2 {b : Ref sig .tc} (hb : b ∈ kept) : W2 m ρ c (Proc.devRef .tc b) = W1 m ρ c (Proc.devRef .tc b) :=
  step2 m ρ c hb

/-- No operation of host stretch 1 writes one of them. -/
theorem step3 {b : Ref sig .tc} (hb : b ∈ kept) : W3 m ρ c (Proc.devRef .tc b) = W2 m ρ c (Proc.devRef .tc b) := by
  split_kept hb <;> (show StableHlo.after hostOps1 (W2 m ρ c) _ = _; after_results_simp)
theorem keep3 {b : Ref sig .tc} (hb : b ∈ kept) : W3 m ρ c (Proc.devRef .tc b) = W1 m ρ c (Proc.devRef .tc b) :=
  (step3 m ρ c hb).trans (keep2 m ρ c hb)

/-- Region 1 stages and writes only its own three arrays. -/
theorem step4 {b : Ref sig .tc} (hb : b ∈ kept) : W4 m ρ c (Proc.devRef .tc b) = W3 m ρ c (Proc.devRef .tc b) := by
  split_kept hb <;> exact W4_of_ne m ρ c _ (by decide)
theorem keep4 {b : Ref sig .tc} (hb : b ∈ kept) : W4 m ρ c (Proc.devRef .tc b) = W1 m ρ c (Proc.devRef .tc b) :=
  (step4 m ρ c hb).trans (keep3 m ρ c hb)

/-- No operation of host stretch 2 writes one of them. -/
theorem step5 {b : Ref sig .tc} (hb : b ∈ kept) : W5 m ρ c (Proc.devRef .tc b) = W4 m ρ c (Proc.devRef .tc b) := by
  split_kept hb <;> (show StableHlo.after hostOps2 (W4 m ρ c) _ = _; after_results_simp)
theorem keep5 {b : Ref sig .tc} (hb : b ∈ kept) : W5 m ρ c (Proc.devRef .tc b) = W1 m ρ c (Proc.devRef .tc b) :=
  (step5 m ρ c hb).trans (keep4 m ρ c hb)

/-- Region 2 stages and writes only its own three arrays. -/
theorem step6 {b : Ref sig .tc} (hb : b ∈ kept) : W6 m ρ c (Proc.devRef .tc b) = W5 m ρ c (Proc.devRef .tc b) := by
  split_kept hb <;> exact W6_of_ne m ρ c _ (by decide)
theorem keep6 {b : Ref sig .tc} (hb : b ∈ kept) : W6 m ρ c (Proc.devRef .tc b) = W1 m ρ c (Proc.devRef .tc b) :=
  (step6 m ρ c hb).trans (keep5 m ρ c hb)

/-- No operation of host stretch 3 writes one of them. -/
theorem step7 {b : Ref sig .tc} (hb : b ∈ kept) : W7 m ρ c (Proc.devRef .tc b) = W6 m ρ c (Proc.devRef .tc b) := by
  split_kept hb <;> (show StableHlo.after hostOps3 (W6 m ρ c) _ = _; after_results_simp)
theorem keep7 {b : Ref sig .tc} (hb : b ∈ kept) : W7 m ρ c (Proc.devRef .tc b) = W1 m ρ c (Proc.devRef .tc b) :=
  (step7 m ρ c hb).trans (keep6 m ρ c hb)

/-- Region 3 stages and writes only its own three arrays. -/
theorem step8 {b : Ref sig .tc} (hb : b ∈ kept) : W8 m ρ c (Proc.devRef .tc b) = W7 m ρ c (Proc.devRef .tc b) := by
  split_kept hb <;> exact W8_of_ne m ρ c _ (by decide)
theorem keep8 {b : Ref sig .tc} (hb : b ∈ kept) : W8 m ρ c (Proc.devRef .tc b) = W1 m ρ c (Proc.devRef .tc b) :=
  (step8 m ρ c hb).trans (keep7 m ρ c hb)

/-- No operation of host stretch 4 writes one of them. -/
theorem step9 {b : Ref sig .tc} (hb : b ∈ kept) : W9 m ρ c (Proc.devRef .tc b) = W8 m ρ c (Proc.devRef .tc b) := by
  split_kept hb <;> (show StableHlo.after hostOps4 (W8 m ρ c) _ = _; after_results_simp)
theorem keep9 {b : Ref sig .tc} (hb : b ∈ kept) : W9 m ρ c (Proc.devRef .tc b) = W1 m ρ c (Proc.devRef .tc b) :=
  (step9 m ρ c hb).trans (keep8 m ρ c hb)

/-- Region 4 stages and writes only its own three arrays. -/
theorem step10 {b : Ref sig .tc} (hb : b ∈ kept) : W10 m ρ c (Proc.devRef .tc b) = W9 m ρ c (Proc.devRef .tc b) := by
  split_kept hb <;> exact W10_of_ne m ρ c _ (by decide)
theorem keep10 {b : Ref sig .tc} (hb : b ∈ kept) : W10 m ρ c (Proc.devRef .tc b) = W1 m ρ c (Proc.devRef .tc b) :=
  (step10 m ρ c hb).trans (keep9 m ρ c hb)

/-- No operation of host stretch 5 writes one of them. -/
theorem step11 {b : Ref sig .tc} (hb : b ∈ kept) : W11 m ρ c (Proc.devRef .tc b) = W10 m ρ c (Proc.devRef .tc b) := by
  split_kept hb <;> (show StableHlo.after hostOps5 (W10 m ρ c) _ = _; after_results_simp)
theorem keep11 {b : Ref sig .tc} (hb : b ∈ kept) : W11 m ρ c (Proc.devRef .tc b) = W1 m ρ c (Proc.devRef .tc b) :=
  (step11 m ρ c hb).trans (keep10 m ρ c hb)

/-- Region 5 stages and writes only its own three arrays. -/
theorem step12 {b : Ref sig .tc} (hb : b ∈ kept) : W12 m ρ c (Proc.devRef .tc b) = W11 m ρ c (Proc.devRef .tc b) := by
  split_kept hb <;> exact W12_of_ne m ρ c _ (by decide)
theorem keep12 {b : Ref sig .tc} (hb : b ∈ kept) : W12 m ρ c (Proc.devRef .tc b) = W1 m ρ c (Proc.devRef .tc b) :=
  (step12 m ρ c hb).trans (keep11 m ρ c hb)

/-- No operation of host stretch 6 writes one of them. -/
theorem step13 {b : Ref sig .tc} (hb : b ∈ kept) : W13 m ρ c (Proc.devRef .tc b) = W12 m ρ c (Proc.devRef .tc b) := by
  split_kept hb <;> (show StableHlo.after hostOps6 (W12 m ρ c) _ = _; after_results_simp)
theorem keep13 {b : Ref sig .tc} (hb : b ∈ kept) : W13 m ρ c (Proc.devRef .tc b) = W1 m ρ c (Proc.devRef .tc b) :=
  (step13 m ρ c hb).trans (keep12 m ρ c hb)

/-- Region 6 stages and writes only its own three arrays. -/
theorem step14 {b : Ref sig .tc} (hb : b ∈ kept) : W14 m ρ c (Proc.devRef .tc b) = W13 m ρ c (Proc.devRef .tc b) := by
  split_kept hb <;> exact W14_of_ne m ρ c _ (by decide)
theorem keep14 {b : Ref sig .tc} (hb : b ∈ kept) : W14 m ρ c (Proc.devRef .tc b) = W1 m ρ c (Proc.devRef .tc b) :=
  (step14 m ρ c hb).trans (keep13 m ρ c hb)

end Cert.Bridge

end
-- ==== Proof.Linear4.lean ====
/-
  Layer 4's linear map, x ↦ x · W, as the kernel computes it: ten row blocks of 5000 rows, each block's product
  taken whole against the weight matrix into a zero accumulator. Over the extended reals every entry of a block's product
  is the plain sum over the contracted axis of the row's entries times the column's, which is the entry of the product of
  the whole arrays at that row and column; the ten blocks tile the rows, so the array the region leaves is the product
  of the two arrays it found.
-/
import proofs.«156801_j31748398252155_1_alg».proof.Proof.Gen.KernelIdeal.Frame
import proofs.«156801_j31748398252155_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Linear4

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- The two factors as the region finds them: the rows, and the weight matrix. -/
abbrev A (c : Dev nD) : S50000x256.Idx → EReal := V c main_v83
abbrev B (c : Dev nD) : S256x128.Idx → EReal := V c main_v84

theorem hz : (![0, 0] : Fin 2 → Nat) = fun _ => 0 := funext fun a => by fin_cases a <;> rfl

/-- The dimension record of a block's product: rows × 256 times 256 × 128. -/
abbrev D : DotDims S5000x256 S256x128 S5000x128 := dot_S5000x256_S256x128_S5000x128_1_0_0_1_n_n

/-- In a block, entry (r, k) of the left factor: the row of the result entry, the contracted position. -/
abbrev li (j : S5000x128.Idx) (k : Fin 256) : S5000x256.Idx := fun a => match a with
  | ⟨0, _⟩ => ⟨(j 0).val, (j 0).isLt⟩
  | ⟨1, _⟩ => ⟨k.val, k.isLt⟩
/-- Entry (k, n) of the right factor: the contracted position, the column of the result entry. -/
abbrev ri (j : S5000x128.Idx) (k : Fin 256) : S256x128.Idx := fun a => match a with
  | ⟨0, _⟩ => ⟨k.val, k.isLt⟩
  | ⟨1, _⟩ => ⟨(j 1).val, (j 1).isLt⟩

theorem lhs_0 (i : S5000x128.Idx) (q : D.contr.Idx) : (D.lhsIdx i q 0).val = (i 0).val := by
  unfold DotDims.lhsIdx
  rw [dif_neg (show ¬(0 : Fin S5000x256.rank) ∈ D.lhsBatch by decide), dif_pos (show (0 : Fin S5000x256.rank) ∈ D.lhsNonContracting by decide)]
  rfl
theorem lhs_1 (i : S5000x128.Idx) (q : D.contr.Idx) : (D.lhsIdx i q 1).val = (q ⟨0, by decide⟩).val :=
  D.lhsIdx_val_of_single rfl i q
theorem rhs_0 (i : S5000x128.Idx) (q : D.contr.Idx) : (D.rhsIdx i q 0).val = (q ⟨0, by decide⟩).val :=
  D.rhsIdx_val_of_single rfl i q
theorem rhs_1 (i : S5000x128.Idx) (q : D.contr.Idx) : (D.rhsIdx i q 1).val = (i 1).val := by
  unfold DotDims.rhsIdx
  rw [dif_neg (show ¬(1 : Fin S256x128.rank) ∈ D.rhsBatch by decide), dif_pos (show (1 : Fin S256x128.rank) ∈ D.rhsNonContracting by decide)]
  rfl

/-- What the body stores, at an entry of the block: the sum over the contracted axis of the products. -/
theorem pay_apply (x0 : FVec Ideal S5000x256 .bf16) (x1 : FVec Ideal S256x128 .bf16) (j : S5000x128.Idx) :
    k6_pay1 (F := Ideal) x0 x1 j = ∑ k : Fin 256, x0 (li j k) * x1 (ri j k) := by
  unfold k6_pay1
  simp only [shapeCast_self, matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx j ((ValueIdx.contrEquiv1 D 256 rfl rfl).symm k) = li j k := funext fun a => Fin.ext (by
    match a with
    | ⟨0, _⟩ => exact lhs_0 _ _
    | ⟨1, _⟩ => exact (lhs_1 _ _).trans hk)
  have er : D.rhsIdx j ((ValueIdx.contrEquiv1 D 256 rfl rfl).symm k) = ri j k := funext fun a => Fin.ext (by
    match a with
    | ⟨0, _⟩ => exact (rhs_0 _ _).trans hk
    | ⟨1, _⟩ => exact rhs_1 _ _)
  rw [el, er]

/-- The index maps over the ten grid points: the left factor's and the result's blocks are block t of the rows, the
    weight matrix is fetched whole. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) = t.val :=
  (by decide +kernel : ∀ t : Fin grid6.N, _)

/-- The dimension record of the whole product: 50000 × 256 times 256 × 128. -/
abbrev RD : DotDims Cert.ReferenceIdeal.S50000x256 Cert.ReferenceIdeal.S256x128 Cert.ReferenceIdeal.S50000x128 := Cert.ReferenceIdeal.dot_S50000x256_S256x128_S50000x128_1_0_0_1_n_n

/-- The product of two whole arrays, as the host computes it. -/
abbrev whole (y0 : S50000x256.Idx → EReal) (y1 : S256x128.Idx → EReal) : S50000x128.Idx → EReal :=
  Host.dotGeneral (F := Ideal) (φ₁ := .f32) (φ₂ := .f32) RD none y0 y1

/-- An entry of the whole product is the sum over the contracted axis of the row's entries times the column's. -/
theorem whole_apply (y0 : S50000x256.Idx → EReal) (y1 : S256x128.Idx → EReal) (i : S50000x128.Idx) :
    whole y0 y1 i = ∑ k : Fin 256, y0 (Cert.ReferenceIdeal.Read.lidx_main_v83 i k) * y1 (Cert.ReferenceIdeal.Read.ridx_main_v83 i k) := by
  unfold whole
  simp only [Host.dotGeneral]
  rw [Ideal.dotGeneral_apply, ← Equiv.sum_comp (ValueIdx.contrEquiv1 RD 256 rfl rfl).symm]
  refine Finset.sum_congr rfl fun k _ => ?_
  have hk := ValueIdx.contrEquiv1_symm_val RD 256 rfl rfl k
  have el : RD.lhsIdx i ((ValueIdx.contrEquiv1 RD 256 rfl rfl).symm k) = Cert.ReferenceIdeal.Read.lidx_main_v83 i k := funext fun a => Fin.ext (by
    match a with
    | ⟨0, _⟩ => exact Cert.ReferenceIdeal.Read.lhs_main_v83_0 _ _
    | ⟨1, _⟩ => exact (Cert.ReferenceIdeal.Read.lhs_main_v83_1 _ _).trans hk)
  have er : RD.rhsIdx i ((ValueIdx.contrEquiv1 RD 256 rfl rfl).symm k) = Cert.ReferenceIdeal.Read.ridx_main_v83 i k := funext fun a => Fin.ext (by
    match a with
    | ⟨0, _⟩ => exact (Cert.ReferenceIdeal.Read.rhs_main_v83_0 _ _).trans hk
    | ⟨1, _⟩ => exact Cert.ReferenceIdeal.Read.rhs_main_v83_1 _ _)
  rw [el, er]

/-- The product of the two whole arrays the region finds. -/
abbrev G (c : Dev nD) : S50000x128.Idx → EReal := whole (A V c) (B V c)

/-- What grid point t writes back is block t of the whole product. -/
theorem flushed_eq (c : Dev nD) (t : Fin cfg6.N) :
    (dat6 V c).flushed 2 t = ((cfg6.win 2).blk t).view.read (Elt Ideal) (G V c) := by
  show (cfg6.win 2).cut (grid6.coords t) ((dat6 V c).after 2 t) = _
  rw [after6_2]
  unfold out6_2
  rw [View.canon_unit_zero hz]
  simp only [View.ld_unit_zero (S := S5000x256) hz, View.ld_unit_zero (S := S256x128) hz]
  obtain ⟨e0, e1, e2, e3, e4, e5⟩ := idx_facts t
  funext j
  show k6_pay1 (F := Ideal) (iblk6 V c 0 t) (iblk6 V c 1 t) j = G V c (((cfg6.win 2).blk t).view.emb j)
  rw [pay_apply]
  refine Eq.trans ?_ (whole_apply _ _ _).symm
  refine Finset.sum_congr rfl fun k _ => ?_
  have hj0 : (j 0).val < 5000 := (j 0).isLt
  have hj1 : (j 1).val < 128 := (j 1).isLt
  have hk : k.val < 256 := k.isLt
  have h0 : ((cfg6.win 0).blk t).view.emb (li j k) = Cert.ReferenceIdeal.Read.lidx_main_v83 (((cfg6.win 2).blk t).view.emb j) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 256 + 1 * k.val = k.val; omega
  have h1 : ((cfg6.win 1).blk t).view.emb (ri j k) = Cert.ReferenceIdeal.Read.ridx_main_v83 (((cfg6.win 2).blk t).view.emb j) k := by
    funext a; apply Fin.ext
    match a with
    | ⟨0, _⟩ => show win6_1.index t (0 : Fin 2) * 256 + 1 * k.val = k.val; omega
    | ⟨1, _⟩ => show win6_1.index t (1 : Fin 2) * 128 + 1 * (j 1).val = win6_2.index t (1 : Fin 2) * 128 + 1 * (j 1).val; omega
  show A V c (((cfg6.win 0).blk t).view.emb (li j k)) * B V c (((cfg6.win 1).blk t).view.emb (ri j k)) = _
  rw [h0, h1]

/-- A row index lies in point t's block exactly when it lies in rows 5000 t … 5000 t + 4999. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v85).slice (win6_2.rect t)).set ↔ _
  rw [View.set_slice_whole, Rect.mem_set_unit]
  exact Iff.rfl

/-- Every entry of the result array lies in the block of the point its row selects. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  refine ⟨⟨(i 0).val / 5000, by show (i 0).val / 5000 < 10; omega⟩, flush6_2 _, ?_⟩
  rw [mem_blk]
  obtain ⟨e0, e1, e2, e3, e4, e5⟩ := idx_facts ⟨(i 0).val / 5000, by show (i 0).val / 5000 < 10; omega⟩
  intro a
  match a with
  | ⟨0, _⟩ => show win6_2.index _ (0 : Fin 2) * 5000 ≤ (i 0).val ∧ (i 0).val < win6_2.index _ (0 : Fin 2) * 5000 + 5000; rw [e5]; show (i 0).val / 5000 * 5000 ≤ (i 0).val ∧ (i 0).val < (i 0).val / 5000 * 5000 + 5000; omega
  | ⟨1, _⟩ => show win6_2.index _ (1 : Fin 2) * 128 ≤ (i 1).val ∧ (i 1).val < win6_2.index _ (1 : Fin 2) * 128 + 128; rw [e4]; omega

/-- The array the region leaves is the product of the two arrays it found. -/
theorem final (c : Dev nD) : (dat6 V c).arrAt 2 cfg6.N = G V c :=
  (dat6 V c).arrAt_eq_of_cover 2 (G V c) (fun t _ => flushed_eq V c t) (cover)

end Cert.KernelIdeal.Linear4

end
-- ==== Proof.Bias4.lean ====
/-
  Layer 4's bias: the kernel adds the bias row to every row of a block of 5000 aggregated rows,
  entry by entry. The bias is fetched whole at every grid point and the aggregate's and the result's blocks are block t of
  the rows, so entry (r, n) of the array the region leaves is agg (r, n) + b (0, n) of the arrays it found.
-/
import proofs.«156801_j31748398252155_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bias4

open Cert.KernelIdeal Cert.KernelIdeal.Gen Idealize.ShloMosaic Idealize.ShloMosaic.TcCoe Idealize.SL.Sem
open Idealize.ShloMosaic.Pipeline (Dat)
open Idealize.ShloMosaic.ValueIdx

-- the buffers' contents when the region is entered
variable (V : (c : Dev nD) → (b : Ref sig .tc) → Buf (Elt Ideal) ((c : Thread nD τ).loc b))

/-- The aggregated rows and the bias row as the region finds them. -/
abbrev A (c : Dev nD) : S50000x128.Idx → EReal := V c main_v98
abbrev B (c : Dev nD) : S1x128.Idx → EReal := V c main_v99

theorem hz : (![0, 0] : Fin 2 → Nat) = fun _ => 0 := funext fun a => by fin_cases a <;> rfl

/-- What the body stores at row p, column q of a block. -/
theorem pay_apply (x0 : FVec Ideal S5000x128 .f32) (x1 : FVec Ideal S1x128 .f32) (p : Fin 5000) (q : Fin 128) :
    k7_pay1 (F := Ideal) x0 x1 (ix2 p q) = x0 (ix2 p q) + x1 (ix2 (0 : Fin 1) q) := by
  unfold k7_pay1
  simp only [shapeCast_self]
  rw [addf_apply, broadcastTo_1b_ab_apply]

/-- The index maps over the ten grid points: the aggregate's and the result's blocks are block t of the rows, the bias
    row is fetched whole. -/
theorem idx_facts : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) = t.val :=
  (by decide +kernel : ∀ t : Fin grid7.N, _)

/-- The whole result: every row of the aggregate plus the bias row. -/
def G (A : S50000x128.Idx → EReal) (B : S1x128.Idx → EReal) : S50000x128.Idx → EReal :=
  fun i => A i + B (ix2 (0 : Fin 1) (⟨(i 1).val, (i 1).isLt⟩ : Fin 128))

/-- What grid point t writes back is block t of the whole result. -/
theorem flushed_eq (c : Dev nD) (t : Fin cfg7.N) :
    (dat7 V c).flushed 2 t = ((cfg7.win 2).blk t).view.read (Elt Ideal) (G (A V c) (B V c)) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k7_pay1 (F := Ideal) (iblk7 V c 0 t) (iblk7 V c 1 t) (ix2 p q) = G (A V c) (B V c) (((cfg7.win 2).blk t).view.emb (ix2 p q))
  rw [pay_apply]
  have hp : p.val < 5000 := p.isLt
  have hq : q.val < 128 := q.isLt
  have h0 : ((cfg7.win 0).blk t).view.emb (ix2 p q) = ((cfg7.win 2).blk t).view.emb (ix2 p q) := by
    funext a; apply Fin.ext
    match a with
    | ⟨0, _⟩ => show win7_0.index t (0 : Fin 2) * 5000 + 1 * p.val = win7_2.index t (0 : Fin 2) * 5000 + 1 * p.val; omega
    | ⟨1, _⟩ => show win7_0.index t (1 : Fin 2) * 128 + 1 * q.val = win7_2.index t (1 : Fin 2) * 128 + 1 * q.val; omega
  have h1 : ((cfg7.win 1).blk t).view.emb (ix2 (0 : Fin 1) q)
      = ix2 (0 : Fin 1) (⟨((((cfg7.win 2).blk t).view.emb (ix2 p q)) 1).val, ((((cfg7.win 2).blk t).view.emb (ix2 p q)) 1).isLt⟩ : Fin 128) := by
    funext a; apply Fin.ext
    match a with
    | ⟨0, _⟩ => show win7_1.index t (0 : Fin 2) * 1 + 1 * 0 = 0; omega
    | ⟨1, _⟩ => show win7_1.index t (1 : Fin 2) * 128 + 1 * q.val = win7_2.index t (1 : Fin 2) * 128 + 1 * q.val; omega
  show A V c (((cfg7.win 0).blk t).view.emb (ix2 p q)) + B V c (((cfg7.win 1).blk t).view.emb (ix2 (0 : Fin 1) q)) = _
  rw [h0, h1]
  rfl

/-- A row index lies in point t's block exactly when it lies in rows 5000 t … 5000 t + 4999. -/
theorem mem_blk (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v100).slice (win7_2.rect t)).set ↔ _
  rw [View.set_slice_whole, Rect.mem_set_unit]
  exact Iff.rfl

/-- Every entry of the result array lies in the block of the point its row selects. -/
theorem cover (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  refine ⟨⟨(i 0).val / 5000, by show (i 0).val / 5000 < 10; omega⟩, flush7_2 _, ?_⟩
  rw [mem_blk]
  obtain ⟨e0, e1, e2, e3, e4, e5⟩ := idx_facts ⟨(i 0).val / 5000, by show (i 0).val / 5000 < 10; omega⟩
  intro a
  match a with
  | ⟨0, _⟩ => show win7_2.index _ (0 : Fin 2) * 5000 ≤ (i 0).val ∧ (i 0).val < win7_2.index _ (0 : Fin 2) * 5000 + 5000; rw [e5]; show (i 0).val / 5000 * 5000 ≤ (i 0).val ∧ (i 0).val < (i 0).val / 5000 * 5000 + 5000; omega
  | ⟨1, _⟩ => show win7_2.index _ (1 : Fin 2) * 128 ≤ (i 1).val ∧ (i 1).val < win7_2.index _ (1 : Fin 2) * 128 + 128; rw [e4]; omega

/-- The array the region leaves, as one function of the two arrays it found. -/
theorem final (c : Dev nD) : (dat7 V c).arrAt 2 cfg7.N = G (A V c) (B V c) :=
  (dat7 V c).arrAt_eq_of_cover 2 (G (A V c) (B V c)) (fun t _ => flushed_eq V c t) (cover)

end Cert.KernelIdeal.Bias4

end
-- ==== Proof.Linear3.lean ====
/-
  Layer 3's linear map, x ↦ x · W, as the kernel computes it: ten row blocks of 5000 rows, each block's product
  taken whole against the weight matrix into a zero accumulator. Over the extended reals every entry of a block's product
  is the plain sum over the contracted axis of the row's entries times the column's, which is the entry of the product of
  the whole arrays at that row and column; the ten blocks tile the rows, so the array the region leaves is the product
  of the two arrays it found.
-/
import proofs.«156801_j31748398252155_1_alg».proof.Proof.Gen.KernelIdeal.Frame
import proofs.«156801_j31748398252155_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Linear3

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- The two factors as the region finds them: the rows, and the weight matrix. -/
abbrev A (c : Dev nD) : S50000x64.Idx → EReal := V c main_v65
abbrev B (c : Dev nD) : S64x256.Idx → EReal := V c main_v66

theorem hz : (![0, 0] : Fin 2 → Nat) = fun _ => 0 := funext fun a => by fin_cases a <;> rfl

/-- The dimension record of a block's product: rows × 64 times 64 × 256. -/
abbrev D : DotDims S5000x64 S64x256 S5000x256 := dot_S5000x64_S64x256_S5000x256_1_0_0_1_n_n

/-- In a block, entry (r, k) of the left factor: the row of the result entry, the contracted position. -/
abbrev li (j : S5000x256.Idx) (k : Fin 64) : S5000x64.Idx := fun a => match a with
  | ⟨0, _⟩ => ⟨(j 0).val, (j 0).isLt⟩
  | ⟨1, _⟩ => ⟨k.val, k.isLt⟩
/-- Entry (k, n) of the right factor: the contracted position, the column of the result entry. -/
abbrev ri (j : S5000x256.Idx) (k : Fin 64) : S64x256.Idx := fun a => match a with
  | ⟨0, _⟩ => ⟨k.val, k.isLt⟩
  | ⟨1, _⟩ => ⟨(j 1).val, (j 1).isLt⟩

theorem lhs_0 (i : S5000x256.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl
theorem lhs_1 (i : S5000x256.Idx) (q : D.contr.Idx) : (D.lhsIdx i q 1).val = (q ⟨0, by decide⟩).val :=
  D.lhsIdx_val_of_single rfl i q
theorem rhs_0 (i : S5000x256.Idx) (q : D.contr.Idx) : (D.rhsIdx i q 0).val = (q ⟨0, by decide⟩).val :=
  D.rhsIdx_val_of_single rfl i q
theorem rhs_1 (i : S5000x256.Idx) (q : D.contr.Idx) : (D.rhsIdx i q 1).val = (i 1).val := by
  unfold DotDims.rhsIdx
  rw [dif_neg (show ¬(1 : Fin S64x256.rank) ∈ D.rhsBatch by decide), dif_pos (show (1 : Fin S64x256.rank) ∈ D.rhsNonContracting by decide)]
  rfl

/-- What the body stores, at an entry of the block: the sum over the contracted axis of the products. -/
theorem pay_apply (x0 : FVec Ideal S5000x64 .bf16) (x1 : FVec Ideal S64x256 .bf16) (j : S5000x256.Idx) :
    k4_pay1 (F := Ideal) x0 x1 j = ∑ k : Fin 64, x0 (li j k) * x1 (ri j k) := by
  unfold k4_pay1
  simp only [shapeCast_self, matmul]
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : D.lhsIdx j ((ValueIdx.contrEquiv1 D 64 rfl rfl).symm k) = li j k := funext fun a => Fin.ext (by
    match a with
    | ⟨0, _⟩ => exact lhs_0 _ _
    | ⟨1, _⟩ => exact (lhs_1 _ _).trans hk)
  have er : D.rhsIdx j ((ValueIdx.contrEquiv1 D 64 rfl rfl).symm k) = ri j k := funext fun a => Fin.ext (by
    match a with
    | ⟨0, _⟩ => exact (rhs_0 _ _).trans hk
    | ⟨1, _⟩ => exact rhs_1 _ _)
  rw [el, er]

/-- The index maps over the ten grid points: the left factor's and the result's blocks are block t of the rows, the
    weight matrix is fetched whole. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- The dimension record of the whole product: 50000 × 64 times 64 × 256. -/
abbrev RD : DotDims Cert.ReferenceIdeal.S50000x64 Cert.ReferenceIdeal.S64x256 Cert.ReferenceIdeal.S50000x256 := Cert.ReferenceIdeal.dot_S50000x64_S64x256_S50000x256_1_0_0_1_n_n

/-- The product of two whole arrays, as the host computes it. -/
abbrev whole (y0 : S50000x64.Idx → EReal) (y1 : S64x256.Idx → EReal) : S50000x256.Idx → EReal :=
  Host.dotGeneral (F := Ideal) (φ₁ := .f32) (φ₂ := .f32) RD none y0 y1

/-- An entry of the whole product is the sum over the contracted axis of the row's entries times the column's. -/
theorem whole_apply (y0 : S50000x64.Idx → EReal) (y1 : S64x256.Idx → EReal) (i : S50000x256.Idx) :
    whole y0 y1 i = ∑ k : Fin 64, y0 (Cert.ReferenceIdeal.Read.lidx_main_v65 i k) * y1 (Cert.ReferenceIdeal.Read.ridx_main_v65 i k) := by
  unfold whole
  simp only [Host.dotGeneral]
  rw [Ideal.dotGeneral_apply, ← Equiv.sum_comp (ValueIdx.contrEquiv1 RD 64 rfl rfl).symm]
  refine Finset.sum_congr rfl fun k _ => ?_
  have hk := ValueIdx.contrEquiv1_symm_val RD 64 rfl rfl k
  have el : RD.lhsIdx i ((ValueIdx.contrEquiv1 RD 64 rfl rfl).symm k) = Cert.ReferenceIdeal.Read.lidx_main_v65 i k := funext fun a => Fin.ext (by
    match a with
    | ⟨0, _⟩ => exact Cert.ReferenceIdeal.Read.lhs_main_v65_0 _ _
    | ⟨1, _⟩ => exact (Cert.ReferenceIdeal.Read.lhs_main_v65_1 _ _).trans hk)
  have er : RD.rhsIdx i ((ValueIdx.contrEquiv1 RD 64 rfl rfl).symm k) = Cert.ReferenceIdeal.Read.ridx_main_v65 i k := funext fun a => Fin.ext (by
    match a with
    | ⟨0, _⟩ => exact (Cert.ReferenceIdeal.Read.rhs_main_v65_0 _ _).trans hk
    | ⟨1, _⟩ => exact Cert.ReferenceIdeal.Read.rhs_main_v65_1 _ _)
  rw [el, er]

/-- The product of the two whole arrays the region finds. -/
abbrev G (c : Dev nD) : S50000x256.Idx → EReal := whole (A V c) (B V c)

/-- What grid point t writes back is block t of the whole product. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x256) hz]
  obtain ⟨e0, e1, e2, e3, e4, e5⟩ := idx_facts t
  funext j
  show k4_pay1 (F := Ideal) (iblk4 V c 0 t) (iblk4 V c 1 t) j = G V c (((cfg4.win 2).blk t).view.emb j)
  rw [pay_apply]
  refine Eq.trans ?_ (whole_apply _ _ _).symm
  refine Finset.sum_congr rfl fun k _ => ?_
  have hj0 : (j 0).val < 5000 := (j 0).isLt
  have hj1 : (j 1).val < 256 := (j 1).isLt
  have hk : k.val < 64 := k.isLt
  have h0 : ((cfg4.win 0).blk t).view.emb (li j k) = Cert.ReferenceIdeal.Read.lidx_main_v65 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have h1 : ((cfg4.win 1).blk t).view.emb (ri j k) = Cert.ReferenceIdeal.Read.ridx_main_v65 (((cfg4.win 2).blk t).view.emb j) k := by
    funext a; apply Fin.ext
    match a with
    | ⟨0, _⟩ => show win4_1.index t (0 : Fin 2) * 64 + 1 * k.val = k.val; omega
    | ⟨1, _⟩ => show win4_1.index t (1 : Fin 2) * 256 + 1 * (j 1).val = win4_2.index t (1 : Fin 2) * 256 + 1 * (j 1).val; omega
  show A V c (((cfg4.win 0).blk t).view.emb (li j k)) * B V c (((cfg4.win 1).blk t).view.emb (ri j k)) = _
  rw [h0, h1]

/-- A row index lies in point t's block exactly when it lies in rows 5000 t … 5000 t + 4999. -/
theorem mem_blk (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v67).slice (win4_2.rect t)).set ↔ _
  rw [View.set_slice_whole, Rect.mem_set_unit]
  exact Iff.rfl

/-- Every entry of the result array lies in the block of the point its row selects. -/
theorem cover (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  refine ⟨⟨(i 0).val / 5000, by show (i 0).val / 5000 < 10; omega⟩, flush4_2 _, ?_⟩
  rw [mem_blk]
  obtain ⟨e0, e1, e2, e3, e4, e5⟩ := idx_facts ⟨(i 0).val / 5000, by show (i 0).val / 5000 < 10; omega⟩
  intro a
  match a with
  | ⟨0, _⟩ => show win4_2.index _ (0 : Fin 2) * 5000 ≤ (i 0).val ∧ (i 0).val < win4_2.index _ (0 : Fin 2) * 5000 + 5000; rw [e5]; show (i 0).val / 5000 * 5000 ≤ (i 0).val ∧ (i 0).val < (i 0).val / 5000 * 5000 + 5000; omega
  | ⟨1, _⟩ => show win4_2.index _ (1 : Fin 2) * 256 ≤ (i 1).val ∧ (i 1).val < win4_2.index _ (1 : Fin 2) * 256 + 256; rw [e4]; omega

/-- The array the region leaves is the product of the two arrays it found. -/
theorem final (c : Dev nD) : (dat4 V c).arrAt 2 cfg4.N = G V c :=
  (dat4 V c).arrAt_eq_of_cover 2 (G V c) (fun t _ => flushed_eq V c t) (cover)

end Cert.KernelIdeal.Linear3

end
-- ==== Proof.Bias3.lean ====
/-
  Layer 3's bias and rectifier: the kernel adds the bias row to every row of a block of 5000 aggregated rows and takes the maximum with zero,
  entry by entry. The bias is fetched whole at every grid point and the aggregate's and the result's blocks are block t of
  the rows, so entry (r, n) of the array the region leaves is max (agg (r, n) + b (0, n), 0) of the arrays it found.
-/
import proofs.«156801_j31748398252155_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bias3

open Cert.KernelIdeal Cert.KernelIdeal.Gen Idealize.ShloMosaic Idealize.ShloMosaic.TcCoe Idealize.SL.Sem
open Idealize.ShloMosaic.Pipeline (Dat)
open Idealize.ShloMosaic.ValueIdx

-- the buffers' contents when the region is entered
variable (V : (c : Dev nD) → (b : Ref sig .tc) → Buf (Elt Ideal) ((c : Thread nD τ).loc b))

/-- The aggregated rows and the bias row as the region finds them. -/
abbrev A (c : Dev nD) : S50000x256.Idx → EReal := V c main_v80
abbrev B (c : Dev nD) : S1x256.Idx → EReal := V c main_v81

theorem hz : (![0, 0] : Fin 2 → Nat) = fun _ => 0 := funext fun a => by fin_cases a <;> rfl

/-- What the body stores at row p, column q of a block. -/
theorem pay_apply (x0 : FVec Ideal S5000x256 .f32) (x1 : FVec Ideal S1x256 .f32) (p : Fin 5000) (q : Fin 256) :
    k5_pay1 (F := Ideal) x0 x1 (ix2 p q) = max (x0 (ix2 p q) + x1 (ix2 (0 : Fin 1) q)) (Ideal.ofBits .f32 0x00000000#32) := by
  unfold k5_pay1
  simp only [shapeCast_self]
  rw [maximumf_apply, addf_apply, broadcastTo_1b_ab_apply]
  rfl

/-- The index maps over the ten grid points: the aggregate's and the result's blocks are block t of the rows, the bias
    row is fetched whole. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) = t.val :=
  (by decide +kernel : ∀ t : Fin grid5.N, _)

/-- The whole result: every row of the aggregate plus the bias row, cut below at zero. -/
def G (A : S50000x256.Idx → EReal) (B : S1x256.Idx → EReal) : S50000x256.Idx → EReal :=
  fun i => max (A i + B (ix2 (0 : Fin 1) (⟨(i 1).val, (i 1).isLt⟩ : Fin 256))) (Ideal.ofBits .f32 0x00000000#32)

/-- What grid point t writes back is block t of the whole result. -/
theorem flushed_eq (c : Dev nD) (t : Fin cfg5.N) :
    (dat5 V c).flushed 2 t = ((cfg5.win 2).blk t).view.read (Elt Ideal) (G (A V c) (B V c)) := by
  show (cfg5.win 2).cut (grid5.coords t) ((dat5 V c).after 2 t) = _
  rw [after5_2]
  unfold out5_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k5_pay1 (F := Ideal) (iblk5 V c 0 t) (iblk5 V c 1 t) (ix2 p q) = G (A V c) (B V c) (((cfg5.win 2).blk t).view.emb (ix2 p q))
  rw [pay_apply]
  have hp : p.val < 5000 := p.isLt
  have hq : q.val < 256 := q.isLt
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 256 + 1 * q.val = win5_2.index t (1 : Fin 2) * 256 + 1 * q.val; omega
  have h1 : ((cfg5.win 1).blk t).view.emb (ix2 (0 : Fin 1) q)
      = ix2 (0 : Fin 1) (⟨((((cfg5.win 2).blk t).view.emb (ix2 p q)) 1).val, ((((cfg5.win 2).blk t).view.emb (ix2 p q)) 1).isLt⟩ : Fin 256) := by
    funext a; apply Fin.ext
    match a with
    | ⟨0, _⟩ => show win5_1.index t (0 : Fin 2) * 1 + 1 * 0 = 0; omega
    | ⟨1, _⟩ => show win5_1.index t (1 : Fin 2) * 256 + 1 * q.val = win5_2.index t (1 : Fin 2) * 256 + 1 * q.val; omega
  show max (A V c (((cfg5.win 0).blk t).view.emb (ix2 p q)) + B V c (((cfg5.win 1).blk t).view.emb (ix2 (0 : Fin 1) q))) _ = _
  rw [h0, h1]
  rfl

/-- A row index lies in point t's block exactly when it lies in rows 5000 t … 5000 t + 4999. -/
theorem mem_blk (t : Fin cfg5.N) (i : S50000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v82).slice (win5_2.rect t)).set ↔ _
  rw [View.set_slice_whole, Rect.mem_set_unit]
  exact Iff.rfl

/-- Every entry of the result array lies in the block of the point its row selects. -/
theorem cover (i : S50000x256.Idx) : ∃ t : Fin cfg5.N, (cfg5.win 2).flush t = true ∧ i ∈ ((cfg5.win 2).blk t).view.set := by
  have hi0 : (i 0).val < 50000 := (i 0).isLt
  have hi1 : (i 1).val < 256 := (i 1).isLt
  refine ⟨⟨(i 0).val / 5000, by show (i 0).val / 5000 < 10; omega⟩, flush5_2 _, ?_⟩
  rw [mem_blk]
  obtain ⟨e0, e1, e2, e3, e4, e5⟩ := idx_facts ⟨(i 0).val / 5000, by show (i 0).val / 5000 < 10; omega⟩
  intro a
  match a with
  | ⟨0, _⟩ => show win5_2.index _ (0 : Fin 2) * 5000 ≤ (i 0).val ∧ (i 0).val < win5_2.index _ (0 : Fin 2) * 5000 + 5000; rw [e5]; show (i 0).val / 5000 * 5000 ≤ (i 0).val ∧ (i 0).val < (i 0).val / 5000 * 5000 + 5000; omega
  | ⟨1, _⟩ => show win5_2.index _ (1 : Fin 2) * 256 ≤ (i 1).val ∧ (i 1).val < win5_2.index _ (1 : Fin 2) * 256 + 256; rw [e4]; omega

/-- The array the region leaves, as one function of the two arrays it found. -/
theorem final (c : Dev nD) : (dat5 V c).arrAt 2 cfg5.N = G (A V c) (B V c) :=
  (dat5 V c).arrAt_eq_of_cover 2 (G (A V c) (B V c)) (fun t _ => flushed_eq V c t) (cover)

end Cert.KernelIdeal.Bias3

end
-- ==== Proof.Linear2.lean ====
/-
  Layer 2's linear map, x ↦ x · W, as the kernel computes it: ten row blocks of 5000 rows, each block's product
  taken whole against the weight matrix into a zero accumulator. Over the extended reals every entry of a block's product
  is the plain sum over the contracted axis of the row's entries times the column's, which is the entry of the product of
  the whole arrays at that row and column; the ten blocks tile the rows, so the array the region leaves is the product
  of the two arrays it found.
-/
import proofs.«156801_j31748398252155_1_alg».proof.Proof.Gen.KernelIdeal.Frame
import proofs.«156801_j31748398252155_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Linear2

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- The two factors as the region finds them: the rows, and the weight matrix. -/
abbrev A (c : Dev nD) : S50000x256.Idx → EReal := V c main_v47
abbrev B (c : Dev nD) : S256x64.Idx → EReal := V c main_v48

theorem hz : (![0, 0] : Fin 2 → Nat) = fun _ => 0 := funext fun a => by fin_cases a <;> rfl

/-- The dimension record of a block's product: rows × 256 times 256 × 64. -/
abbrev D : DotDims S5000x256 S256x64 S5000x64 := dot_S5000x256_S256x64_S5000x64_1_0_0_1_n_n

/-- In a block, entry (r, k) of the left factor: the row of the result entry, the contracted position. -/
abbrev li (j : S5000x64.Idx) (k : Fin 256) : S5000x256.Idx := fun a => match a with
  | ⟨0, _⟩ => ⟨(j 0).val, (j 0).isLt⟩
  | ⟨1, _⟩ => ⟨k.val, k.isLt⟩
/-- Entry (k, n) of the right factor: the contracted position, the column of the result entry. -/
abbrev ri (j : S5000x64.Idx) (k : Fin 256) : S256x64.Idx := fun a => match a with
  | ⟨0, _⟩ => ⟨k.val, k.isLt⟩
  | ⟨1, _⟩ => ⟨(j 1).val, (j 1).isLt⟩

theorem lhs_0 (i : S5000x64.Idx) (q : D.contr.Idx) : (D.lhsIdx i q 0).val = (i 0).val := by
  unfold DotDims.lhsIdx
  rw [dif_neg (show ¬(0 : Fin S5000x256.rank) ∈ D.lhsBatch by decide), dif_pos (show (0 : Fin S5000x256.rank) ∈ D.lhsNonContracting by decide)]
  rfl
theorem lhs_1 (i : S5000x64.Idx) (q : D.contr.Idx) : (D.lhsIdx i q 1).val = (q ⟨0, by decide⟩).val :=
  D.lhsIdx_val_of_single rfl i q
theorem rhs_0 (i : S5000x64.Idx) (q : D.contr.Idx) : (D.rhsIdx i q 0).val = (q ⟨0, by decide⟩).val :=
  D.rhsIdx_val_of_single rfl i q
theorem rhs_1 (i : S5000x64.Idx) (q : D.contr.Idx) : (D.rhsIdx i q 1).val = (i 1).val := by
  unfold DotDims.rhsIdx
  rw [dif_neg (show ¬(1 : Fin S256x64.rank) ∈ D.rhsBatch by decide), dif_pos (show (1 : Fin S256x64.rank) ∈ D.rhsNonContracting by decide)]
  rfl

/-- What the body stores, at an entry of the block: the sum over the contracted axis of the products. -/
theorem pay_apply (x0 : FVec Ideal S5000x256 .bf16) (x1 : FVec Ideal S256x64 .bf16) (j : S5000x64.Idx) :
    k2_pay1 (F := Ideal) x0 x1 j = ∑ k : Fin 256, x0 (li j k) * x1 (ri j k) := by
  unfold k2_pay1
  simp only [shapeCast_self, matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx j ((ValueIdx.contrEquiv1 D 256 rfl rfl).symm k) = li j k := funext fun a => Fin.ext (by
    match a with
    | ⟨0, _⟩ => exact lhs_0 _ _
    | ⟨1, _⟩ => exact (lhs_1 _ _).trans hk)
  have er : D.rhsIdx j ((ValueIdx.contrEquiv1 D 256 rfl rfl).symm k) = ri j k := funext fun a => Fin.ext (by
    match a with
    | ⟨0, _⟩ => exact (rhs_0 _ _).trans hk
    | ⟨1, _⟩ => exact rhs_1 _ _)
  rw [el, er]

/-- The index maps over the ten grid points: the left factor's and the result's blocks are block t of the rows, the
    weight matrix is fetched whole. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- The dimension record of the whole product: 50000 × 256 times 256 × 64. -/
abbrev RD : DotDims Cert.ReferenceIdeal.S50000x256 Cert.ReferenceIdeal.S256x64 Cert.ReferenceIdeal.S50000x64 := Cert.ReferenceIdeal.dot_S50000x256_S256x64_S50000x64_1_0_0_1_n_n

/-- The product of two whole arrays, as the host computes it. -/
abbrev whole (y0 : S50000x256.Idx → EReal) (y1 : S256x64.Idx → EReal) : S50000x64.Idx → EReal :=
  Host.dotGeneral (F := Ideal) (φ₁ := .f32) (φ₂ := .f32) RD none y0 y1

/-- An entry of the whole product is the sum over the contracted axis of the row's entries times the column's. -/
theorem whole_apply (y0 : S50000x256.Idx → EReal) (y1 : S256x64.Idx → EReal) (i : S50000x64.Idx) :
    whole y0 y1 i = ∑ k : Fin 256, y0 (Cert.ReferenceIdeal.Read.lidx_main_v47 i k) * y1 (Cert.ReferenceIdeal.Read.ridx_main_v47 i k) := by
  unfold whole
  simp only [Host.dotGeneral]
  rw [Ideal.dotGeneral_apply, ← Equiv.sum_comp (ValueIdx.contrEquiv1 RD 256 rfl rfl).symm]
  refine Finset.sum_congr rfl fun k _ => ?_
  have hk := ValueIdx.contrEquiv1_symm_val RD 256 rfl rfl k
  have el : RD.lhsIdx i ((ValueIdx.contrEquiv1 RD 256 rfl rfl).symm k) = Cert.ReferenceIdeal.Read.lidx_main_v47 i k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : RD.rhsIdx i ((ValueIdx.contrEquiv1 RD 256 rfl rfl).symm k) = Cert.ReferenceIdeal.Read.ridx_main_v47 i k := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-- The product of the two whole arrays the region finds. -/
abbrev G (c : Dev nD) : S50000x64.Idx → EReal := whole (A V c) (B V c)

/-- What grid point t writes back is block t of the whole product. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x64) hz]
  obtain ⟨e0, e1, e2, e3, e4, e5⟩ := idx_facts t
  funext j
  show k2_pay1 (F := Ideal) (iblk2 V c 0 t) (iblk2 V c 1 t) j = G V c (((cfg2.win 2).blk t).view.emb j)
  rw [pay_apply]
  refine Eq.trans ?_ (whole_apply _ _ _).symm
  refine Finset.sum_congr rfl fun k _ => ?_
  have hj0 : (j 0).val < 5000 := (j 0).isLt
  have hj1 : (j 1).val < 64 := (j 1).isLt
  have hk : k.val < 256 := k.isLt
  have h0 : ((cfg2.win 0).blk t).view.emb (li j k) = Cert.ReferenceIdeal.Read.lidx_main_v47 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have h1 : ((cfg2.win 1).blk t).view.emb (ri j k) = Cert.ReferenceIdeal.Read.ridx_main_v47 (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 64 + 1 * (j 1).val = win2_2.index t (1 : Fin 2) * 64 + 1 * (j 1).val; omega
  show A V c (((cfg2.win 0).blk t).view.emb (li j k)) * B V c (((cfg2.win 1).blk t).view.emb (ri j k)) = _
  rw [h0, h1]

/-- A row index lies in point t's block exactly when it lies in rows 5000 t … 5000 t + 4999. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Every entry of the result array lies in the block of the point its row selects. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  refine ⟨⟨(i 0).val / 5000, by show (i 0).val / 5000 < 10; omega⟩, flush2_2 _, ?_⟩
  rw [mem_blk]
  obtain ⟨e0, e1, e2, e3, e4, e5⟩ := idx_facts ⟨(i 0).val / 5000, by show (i 0).val / 5000 < 10; omega⟩
  intro a
  match a with
  | ⟨0, _⟩ => show win2_2.index _ (0 : Fin 2) * 5000 ≤ (i 0).val ∧ (i 0).val < win2_2.index _ (0 : Fin 2) * 5000 + 5000; rw [e5]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e4]; omega

/-- The array the region leaves is the product of the two arrays it found. -/
theorem final (c : Dev nD) : (dat2 V c).arrAt 2 cfg2.N = G V c :=
  (dat2 V c).arrAt_eq_of_cover 2 (G V c) (fun t _ => flushed_eq V c t) (cover)

end Cert.KernelIdeal.Linear2

end
-- ==== Proof.Bias2.lean ====
/-
  Layer 2's bias and rectifier: the kernel adds the bias row to every row of a block of 5000 aggregated rows and takes the maximum with zero,
  entry by entry. The bias is fetched whole at every grid point and the aggregate's and the result's blocks are block t of
  the rows, so entry (r, n) of the array the region leaves is max (agg (r, n) + b (0, n), 0) of the arrays it found.
-/
import proofs.«156801_j31748398252155_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bias2

open Cert.KernelIdeal Cert.KernelIdeal.Gen Idealize.ShloMosaic Idealize.ShloMosaic.TcCoe Idealize.SL.Sem
open Idealize.ShloMosaic.Pipeline (Dat)
open Idealize.ShloMosaic.ValueIdx

-- the buffers' contents when the region is entered
variable (V : (c : Dev nD) → (b : Ref sig .tc) → Buf (Elt Ideal) ((c : Thread nD τ).loc b))

/-- The aggregated rows and the bias row as the region finds them. -/
abbrev A (c : Dev nD) : S50000x64.Idx → EReal := V c main_v62
abbrev B (c : Dev nD) : S1x64.Idx → EReal := V c main_v63

theorem hz : (![0, 0] : Fin 2 → Nat) = fun _ => 0 := funext fun a => by fin_cases a <;> rfl

/-- What the body stores at row p, column q of a block. -/
theorem pay_apply (x0 : FVec Ideal S5000x64 .f32) (x1 : FVec Ideal S1x64 .f32) (p : Fin 5000) (q : Fin 64) :
    k3_pay1 (F := Ideal) x0 x1 (ix2 p q) = max (x0 (ix2 p q) + x1 (ix2 (0 : Fin 1) q)) (Ideal.ofBits .f32 0x00000000#32) := by
  unfold k3_pay1
  simp only [shapeCast_self]
  rw [maximumf_apply, addf_apply, broadcastTo_1b_ab_apply]
  rfl

/-- The index maps over the ten grid points: the aggregate's and the result's blocks are block t of the rows, the bias
    row is fetched whole. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

/-- The whole result: every row of the aggregate plus the bias row, cut below at zero. -/
def G (A : S50000x64.Idx → EReal) (B : S1x64.Idx → EReal) : S50000x64.Idx → EReal :=
  fun i => max (A i + B (ix2 (0 : Fin 1) (⟨(i 1).val, (i 1).isLt⟩ : Fin 64))) (Ideal.ofBits .f32 0x00000000#32)

/-- What grid point t writes back is block t of the whole result. -/
theorem flushed_eq (c : Dev nD) (t : Fin cfg3.N) :
    (dat3 V c).flushed 2 t = ((cfg3.win 2).blk t).view.read (Elt Ideal) (G (A V c) (B V c)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (ix2 p q) = G (A V c) (B V c) (((cfg3.win 2).blk t).view.emb (ix2 p q))
  rw [pay_apply]
  have hp : p.val < 5000 := p.isLt
  have hq : q.val < 64 := q.isLt
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) (⟨((((cfg3.win 2).blk t).view.emb (ix2 p q)) 1).val, ((((cfg3.win 2).blk t).view.emb (ix2 p q)) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  show max (A V c (((cfg3.win 0).blk t).view.emb (ix2 p q)) + B V c (((cfg3.win 1).blk t).view.emb (ix2 (0 : Fin 1) q))) _ = _
  rw [h0, h1]
  rfl

/-- A row index lies in point t's block exactly when it lies in rows 5000 t … 5000 t + 4999. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v64).slice (win3_2.rect t)).set ↔ _
  rw [View.set_slice_whole, Rect.mem_set_unit]
  exact Iff.rfl

/-- Every entry of the result array lies in the block of the point its row selects. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  refine ⟨⟨(i 0).val / 5000, by show (i 0).val / 5000 < 10; omega⟩, flush3_2 _, ?_⟩
  rw [mem_blk]
  obtain ⟨e0, e1, e2, e3, e4, e5⟩ := idx_facts ⟨(i 0).val / 5000, by show (i 0).val / 5000 < 10; omega⟩
  intro a
  match a with
  | ⟨0, _⟩ => show win3_2.index _ (0 : Fin 2) * 5000 ≤ (i 0).val ∧ (i 0).val < win3_2.index _ (0 : Fin 2) * 5000 + 5000; rw [e5]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e4]; omega

/-- The array the region leaves, as one function of the two arrays it found. -/
theorem final (c : Dev nD) : (dat3 V c).arrAt 2 cfg3.N = G (A V c) (B V c) :=
  (dat3 V c).arrAt_eq_of_cover 2 (G (A V c) (B V c)) (fun t _ => flushed_eq V c t) (cover)

end Cert.KernelIdeal.Bias2

end
-- ==== Proof.Linear1.lean ====
/-
  Layer 1's linear map, x ↦ x · W, as the kernel computes it: ten row blocks of 5000 rows, each block's product
  taken whole against the weight matrix into a zero accumulator. Over the extended reals every entry of a block's product
  is the plain sum over the contracted axis of the row's entries times the column's, which is the entry of the product of
  the whole arrays at that row and column; the ten blocks tile the rows, so the array the region leaves is the product
  of the two arrays it found.
-/
import proofs.«156801_j31748398252155_1_alg».proof.Proof.Gen.KernelIdeal.Frame
import proofs.«156801_j31748398252155_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Linear1

open Cert.KernelIdeal Cert.KernelIdeal.Gen Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- The two factors as the region finds them: the rows, and the weight matrix. -/
abbrev A (c : Dev nD) : S50000x128.Idx → EReal := V c main_v29
abbrev B (c : Dev nD) : S128x256.Idx → EReal := V c main_v30

theorem hz : (![0, 0] : Fin 2 → Nat) = fun _ => 0 := funext fun a => by fin_cases a <;> rfl

/-- The dimension record of a block's product: rows × 128 times 128 × 256. -/
abbrev D : DotDims S5000x128 S128x256 S5000x256 := dot_S5000x128_S128x256_S5000x256_1_0_0_1_n_n

/-- In a block, entry (r, k) of the left factor: the row of the result entry, the contracted position. -/
abbrev li (j : S5000x256.Idx) (k : Fin 128) : S5000x128.Idx := fun a => match a with
  | ⟨0, _⟩ => ⟨(j 0).val, (j 0).isLt⟩
  | ⟨1, _⟩ => ⟨k.val, k.isLt⟩
/-- Entry (k, n) of the right factor: the contracted position, the column of the result entry. -/
abbrev ri (j : S5000x256.Idx) (k : Fin 128) : S128x256.Idx := fun a => match a with
  | ⟨0, _⟩ => ⟨k.val, k.isLt⟩
  | ⟨1, _⟩ => ⟨(j 1).val, (j 1).isLt⟩

theorem lhs_0 (i : S5000x256.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x256.Idx) (q : D.contr.Idx) : (D.lhsIdx i q 1).val = (q ⟨0, by decide⟩).val :=
  D.lhsIdx_val_of_single rfl i q
theorem rhs_0 (i : S5000x256.Idx) (q : D.contr.Idx) : (D.rhsIdx i q 0).val = (q ⟨0, by decide⟩).val :=
  D.rhsIdx_val_of_single rfl i q
theorem rhs_1 (i : S5000x256.Idx) (q : D.contr.Idx) : (D.rhsIdx i q 1).val = (i 1).val := by
  unfold DotDims.rhsIdx
  rw [dif_neg (show ¬(1 : Fin S128x256.rank) ∈ D.rhsBatch by decide), dif_pos (show (1 : Fin S128x256.rank) ∈ D.rhsNonContracting by decide)]
  rfl

/-- What the body stores, at an entry of the block: the sum over the contracted axis of the products. -/
theorem pay_apply (x0 : FVec Ideal S5000x128 .bf16) (x1 : FVec Ideal S128x256 .bf16) (j : S5000x256.Idx) :
    k0_pay1 (F := Ideal) x0 x1 j = ∑ k : Fin 128, x0 (li j k) * x1 (ri j k) := by
  unfold k0_pay1
  simp only [shapeCast_self, matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx j ((ValueIdx.contrEquiv1 D 128 rfl rfl).symm k) = li j k := funext fun a => Fin.ext (by
    match a with
    | ⟨0, _⟩ => exact lhs_0 _ _
    | ⟨1, _⟩ => exact (lhs_1 _ _).trans hk)
  have er : D.rhsIdx j ((ValueIdx.contrEquiv1 D 128 rfl rfl).symm k) = ri j k := funext fun a => Fin.ext (by
    match a with
    | ⟨0, _⟩ => exact (rhs_0 _ _).trans hk
    | ⟨1, _⟩ => exact rhs_1 _ _)
  rw [el, er]

/-- The index maps over the ten grid points: the left factor's and the result's blocks are block t of the rows, the
    weight matrix is fetched whole. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The dimension record of the whole product: 50000 × 128 times 128 × 256. -/
abbrev RD : DotDims Cert.ReferenceIdeal.S50000x128 Cert.ReferenceIdeal.S128x256 Cert.ReferenceIdeal.S50000x256 := Cert.ReferenceIdeal.dot_S50000x128_S128x256_S50000x256_1_0_0_1_n_n

/-- The product of two whole arrays, as the host computes it. -/
abbrev whole (y0 : S50000x128.Idx → EReal) (y1 : S128x256.Idx → EReal) : S50000x256.Idx → EReal :=
  Host.dotGeneral (F := Ideal) (φ₁ := .f32) (φ₂ := .f32) RD none y0 y1

/-- An entry of the whole product is the sum over the contracted axis of the row's entries times the column's. -/
theorem whole_apply (y0 : S50000x128.Idx → EReal) (y1 : S128x256.Idx → EReal) (i : S50000x256.Idx) :
    whole y0 y1 i = ∑ k : Fin 128, y0 (Cert.ReferenceIdeal.Read.lidx_main_v29 i k) * y1 (Cert.ReferenceIdeal.Read.ridx_main_v29 i k) := by
  unfold whole
  simp only [Host.dotGeneral]
  rw [Ideal.dotGeneral_apply, ← Equiv.sum_comp (ValueIdx.contrEquiv1 RD 128 rfl rfl).symm]
  refine Finset.sum_congr rfl fun k _ => ?_
  have hk := ValueIdx.contrEquiv1_symm_val RD 128 rfl rfl k
  have el : RD.lhsIdx i ((ValueIdx.contrEquiv1 RD 128 rfl rfl).symm k) = Cert.ReferenceIdeal.Read.lidx_main_v29 i k := funext fun a => Fin.ext (by
    match a with
    | ⟨0, _⟩ => exact Cert.ReferenceIdeal.Read.lhs_main_v29_0 _ _
    | ⟨1, _⟩ => exact (Cert.ReferenceIdeal.Read.lhs_main_v29_1 _ _).trans hk)
  have er : RD.rhsIdx i ((ValueIdx.contrEquiv1 RD 128 rfl rfl).symm k) = Cert.ReferenceIdeal.Read.ridx_main_v29 i k := funext fun a => Fin.ext (by
    match a with
    | ⟨0, _⟩ => exact (Cert.ReferenceIdeal.Read.rhs_main_v29_0 _ _).trans hk
    | ⟨1, _⟩ => exact Cert.ReferenceIdeal.Read.rhs_main_v29_1 _ _)
  rw [el, er]

/-- The product of the two whole arrays the region finds. -/
abbrev G (c : Dev nD) : S50000x256.Idx → EReal := whole (A V c) (B V c)

/-- What grid point t writes back is block t of the whole product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  funext j
  show k0_pay1 (F := Ideal) (iblk0 V c 0 t) (iblk0 V c 1 t) j = G V c (((cfg0.win 2).blk t).view.emb j)
  rw [pay_apply]
  refine Eq.trans ?_ (whole_apply _ _ _).symm
  refine Finset.sum_congr rfl fun k _ => ?_
  have hj0 : (j 0).val < 5000 := (j 0).isLt
  have hj1 : (j 1).val < 256 := (j 1).isLt
  have hk : k.val < 128 := k.isLt
  have h0 : ((cfg0.win 0).blk t).view.emb (li j k) = Cert.ReferenceIdeal.Read.lidx_main_v29 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ri j k) = Cert.ReferenceIdeal.Read.ridx_main_v29 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  show A V c (((cfg0.win 0).blk t).view.emb (li j k)) * B V c (((cfg0.win 1).blk t).view.emb (ri j k)) = _
  rw [h0, h1]

/-- A row index lies in point t's block exactly when it lies in rows 5000 t … 5000 t + 4999. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v31).slice (win0_2.rect t)).set ↔ _
  rw [View.set_slice_whole, Rect.mem_set_unit]
  exact Iff.rfl

/-- Every entry of the result array lies in the block of the point its row selects. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  refine ⟨⟨(i 0).val / 5000, by show (i 0).val / 5000 < 10; omega⟩, flush0_2 _, ?_⟩
  rw [mem_blk]
  obtain ⟨e0, e1, e2, e3, e4, e5⟩ := idx_facts ⟨(i 0).val / 5000, by show (i 0).val / 5000 < 10; omega⟩
  intro a
  match a with
  | ⟨0, _⟩ => show win0_2.index _ (0 : Fin 2) * 5000 ≤ (i 0).val ∧ (i 0).val < win0_2.index _ (0 : Fin 2) * 5000 + 5000; rw [e5]; show (i 0).val / 5000 * 5000 ≤ (i 0).val ∧ (i 0).val < (i 0).val / 5000 * 5000 + 5000; omega
  | ⟨1, _⟩ => show win0_2.index _ (1 : Fin 2) * 256 ≤ (i 1).val ∧ (i 1).val < win0_2.index _ (1 : Fin 2) * 256 + 256; rw [e4]; omega

/-- The array the region leaves is the product of the two arrays it found. -/
theorem final (c : Dev nD) : (dat0 V c).arrAt 2 cfg0.N = G V c :=
  (dat0 V c).arrAt_eq_of_cover 2 (G V c) (fun t _ => flushed_eq V c t) (cover)

end Cert.KernelIdeal.Linear1

end
-- ==== Proof.Bias1.lean ====
/-
  Layer 1's bias and rectifier: the kernel adds the bias row to every row of a block of 5000 aggregated rows and takes the maximum with zero,
  entry by entry. The bias is fetched whole at every grid point and the aggregate's and the result's blocks are block t of
  the rows, so entry (r, n) of the array the region leaves is max (agg (r, n) + b (0, n), 0) of the arrays it found.
-/
import proofs.«156801_j31748398252155_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bias1

open Cert.KernelIdeal Cert.KernelIdeal.Gen Idealize.ShloMosaic Idealize.ShloMosaic.TcCoe Idealize.SL.Sem
open Idealize.ShloMosaic.Pipeline (Dat)
open Idealize.ShloMosaic.ValueIdx

-- the buffers' contents when the region is entered
variable (V : (c : Dev nD) → (b : Ref sig .tc) → Buf (Elt Ideal) ((c : Thread nD τ).loc b))

/-- The aggregated rows and the bias row as the region finds them. -/
abbrev A (c : Dev nD) : S50000x256.Idx → EReal := V c main_v44
abbrev B (c : Dev nD) : S1x256.Idx → EReal := V c main_v45

theorem hz : (![0, 0] : Fin 2 → Nat) = fun _ => 0 := funext fun a => by fin_cases a <;> rfl

/-- What the body stores at row p, column q of a block. -/
theorem pay_apply (x0 : FVec Ideal S5000x256 .f32) (x1 : FVec Ideal S1x256 .f32) (p : Fin 5000) (q : Fin 256) :
    k1_pay1 (F := Ideal) x0 x1 (ix2 p q) = max (x0 (ix2 p q) + x1 (ix2 (0 : Fin 1) q)) (Ideal.ofBits .f32 0x00000000#32) := by
  unfold k1_pay1
  simp only [shapeCast_self]
  rw [maximumf_apply, addf_apply, broadcastTo_1b_ab_apply]
  rfl

/-- The index maps over the ten grid points: the aggregate's and the result's blocks are block t of the rows, the bias
    row is fetched whole. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- The whole result: every row of the aggregate plus the bias row, cut below at zero. -/
def G (A : S50000x256.Idx → EReal) (B : S1x256.Idx → EReal) : S50000x256.Idx → EReal :=
  fun i => max (A i + B (ix2 (0 : Fin 1) (⟨(i 1).val, (i 1).isLt⟩ : Fin 256))) (Ideal.ofBits .f32 0x00000000#32)

/-- What grid point t writes back is block t of the whole result. -/
theorem flushed_eq (c : Dev nD) (t : Fin cfg1.N) :
    (dat1 V c).flushed 2 t = ((cfg1.win 2).blk t).view.read (Elt Ideal) (G (A V c) (B V c)) := by
  show (cfg1.win 2).cut (grid1.coords t) ((dat1 V c).after 2 t) = _
  rw [after1_2]
  unfold out1_2
  rw [View.canon_unit_zero hz]
  simp only [View.ld_unit_zero (S := S5000x256) hz, View.ld_unit_zero (S := S1x256) hz]
  obtain ⟨e0, e1, e2, e3, e4, e5⟩ := idx_facts t
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (ix2 p q) = G (A V c) (B V c) (((cfg1.win 2).blk t).view.emb (ix2 p q))
  rw [pay_apply]
  have hp : p.val < 5000 := p.isLt
  have hq : q.val < 256 := q.isLt
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 256) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  show max (A V c (((cfg1.win 0).blk t).view.emb (ix2 p q)) + B V c (((cfg1.win 1).blk t).view.emb (ix2 (0 : Fin 1) q))) _ = _
  rw [h0, h1]
  rfl

/-- A row index lies in point t's block exactly when it lies in rows 5000 t … 5000 t + 4999. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v46).slice (win1_2.rect t)).set ↔ _
  rw [View.set_slice_whole, Rect.mem_set_unit]
  exact Iff.rfl

/-- Every entry of the result array lies in the block of the point its row selects. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  refine ⟨⟨(i 0).val / 5000, by show (i 0).val / 5000 < 10; omega⟩, flush1_2 _, ?_⟩
  rw [mem_blk]
  obtain ⟨e0, e1, e2, e3, e4, e5⟩ := idx_facts ⟨(i 0).val / 5000, by show (i 0).val / 5000 < 10; omega⟩
  intro a
  match a with
  | ⟨0, _⟩ => show win1_2.index _ (0 : Fin 2) * 5000 ≤ (i 0).val ∧ (i 0).val < win1_2.index _ (0 : Fin 2) * 5000 + 5000; rw [e5]; show (i 0).val / 5000 * 5000 ≤ (i 0).val ∧ (i 0).val < (i 0).val / 5000 * 5000 + 5000; omega
  | ⟨1, _⟩ => show win1_2.index _ (1 : Fin 2) * 256 ≤ (i 1).val ∧ (i 1).val < win1_2.index _ (1 : Fin 2) * 256 + 256; rw [e4]; omega

/-- The array the region leaves, as one function of the two arrays it found. -/
theorem final (c : Dev nD) : (dat1 V c).arrAt 2 cfg1.N = G (A V c) (B V c) :=
  (dat1 V c).arrAt_eq_of_cover 2 (G (A V c) (B V c)) (fun t _ => flushed_eq V c t) (cover)

end Cert.KernelIdeal.Bias1

end
-- ==== Proof.Layer1.lean ====
/-
  Layer 1 of the network, end to end. The node features and the first weight matrix enter the kernel's blocked product;
  the product region leaves the product of the whole arrays, which is the reference's `dot_general`. The host stretch that
  follows gathers the product's rows at the source indices, scales them by the edge weights and sums them into the
  destination rows: the same operations, on the same index arrays and weights, as the reference's, so the aggregate is the
  reference's. The bias region then adds the bias row and cuts below at zero, entry by entry, as the reference does with its
  broadcast bias and its maximum with a zero array.
-/
import proofs.«156801_j31748398252155_1_alg».proof.Proof.Gen.KernelIdeal.Frame
import proofs.«156801_j31748398252155_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import proofs.«156801_j31748398252155_1_alg».proof.Proof.Carry
import proofs.«156801_j31748398252155_1_alg».proof.Proof.Linear1
import proofs.«156801_j31748398252155_1_alg».proof.Proof.Bias1

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

open Idealize.ShloMosaic.ValueIdx

/-- The product region leaves the reference's product. -/
theorem lin1 : W2 m ρ c (Proc.devRef .tc main_v31) = Cert.ReferenceIdeal.Read.val_main_v29 (F := Ideal) x0 x2 := by
  refine (W2_arr m ρ c 2).trans ((Cert.KernelIdeal.Linear1.final (V1 m ρ) c).trans ?_)
  show Cert.KernelIdeal.Linear1.whole (W1 m ρ c (Proc.devRef .tc main_v29)) (W1 m ρ c (Proc.devRef .tc main_v30)) = _
  rw [W1_x, W1_w]
  rfl

/-- The rows gathered at the sources, weighted and summed into the destinations: the reference's aggregate. -/
theorem agg1 : W3 m ρ c (Proc.devRef .tc main_v44) = Cert.ReferenceIdeal.Read.val_main_v42 (F := Ideal) x0 x1 x2 := by
  show StableHlo.after hostOps1 (W2 m ρ c) (Proc.devRef .tc main_v44) = _
  after_results_simp
  rw [lin1, keep2 m ρ c (b := main_v3) (by decide), W1_src, keep2 m ρ c (b := main_v6) (by decide), W1_dst,
    keep2 m ρ c (b := main_v28) (by decide), W1_norm]
  rfl

/-- The bias row the region stages is the bias vector, entry for entry. -/
theorem brow1 (q : Fin 256) :
    (W3 m ρ c (Proc.devRef .tc main_v45) : S1x256.Idx → EReal) (ix2 (0 : Fin 1) q) = (x3 : S256.Idx → EReal) (ix1 q) := by
  show (StableHlo.after hostOps1 (W2 m ρ c) (Proc.devRef .tc main_v45) : S1x256.Idx → EReal) (ix2 (0 : Fin 1) q) = _
  after_results_simp
  rw [keep2 m ρ c (b := main_arg3) (by decide), W1_arg3]
  exact shapeCast_a_1a_apply _ _ _ _

/-- The bias region leaves the reference's layer output. -/
theorem out1 : W4 m ρ c (Proc.devRef .tc main_v46) = Cert.ReferenceIdeal.Read.val_main_v46 (F := Ideal) x0 x1 x2 x3 := by
  refine (W4_arr m ρ c 2).trans ((Cert.KernelIdeal.Bias1.final (V3 m ρ) c).trans ?_)
  have hA : Cert.KernelIdeal.Bias1.A (V3 m ρ) c = Cert.ReferenceIdeal.Read.val_main_v42 (F := Ideal) x0 x1 x2 := agg1 m ρ c
  have hB : ∀ q : Fin 256, Cert.KernelIdeal.Bias1.B (V3 m ρ) c (ix2 (0 : Fin 1) q) = (x3 : S256.Idx → EReal) (ix1 q) := brow1 m ρ c
  funext i
  show Cert.KernelIdeal.Bias1.G (Cert.KernelIdeal.Bias1.A (V3 m ρ) c) (Cert.KernelIdeal.Bias1.B (V3 m ρ) c) i = _
  simp only [Cert.KernelIdeal.Bias1.G]
  rw [hA, hB]
  rw [Cert.ReferenceIdeal.Read.val_main_v46_apply, Cert.ReferenceIdeal.Read.val_main_v45_apply, Cert.ReferenceIdeal.Read.val_main_v44_apply, Cert.ReferenceIdeal.Read.val_main_v43_apply, Cert.ReferenceIdeal.Read.val_main_call0_v0_apply, Cert.ReferenceIdeal.Read.val_main_call0_cst_apply]
  have e : Cert.ReferenceIdeal.Read.idx_main_v43 (Cert.ReferenceIdeal.Read.idx_main_v44 i) = ix1 (⟨(i 1).val, (i 1).isLt⟩ : Fin 256) :=
    funext fun a => Fin.ext (by match a with | ⟨0, _⟩ => rfl)
  rw [e]
  rfl

end Cert.Bridge

end
-- ==== Proof.Layer2.lean ====
/-
  Layer 2 of the network, end to end. The previous layer's output and this layer's weight matrix enter the kernel's blocked product unchanged (over the extended reals a change of float format is the identity);
  the product region leaves the product of the whole arrays, which is the reference's `dot_general`. The host stretch that
  follows gathers the product's rows at the source indices, scales them by the edge weights and sums them into the
  destination rows: the same operations, on the same index arrays and weights, as the reference's, so the aggregate is the
  reference's. The bias region then adds the bias row and cuts below at zero, entry by entry, as the reference does with its
  broadcast bias and its maximum with a zero array.
-/
import proofs.«156801_j31748398252155_1_alg».proof.Proof.Gen.KernelIdeal.Frame
import proofs.«156801_j31748398252155_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import proofs.«156801_j31748398252155_1_alg».proof.Proof.Carry
import proofs.«156801_j31748398252155_1_alg».proof.Proof.Linear2
import proofs.«156801_j31748398252155_1_alg».proof.Proof.Bias2
import proofs.«156801_j31748398252155_1_alg».proof.Proof.Layer1

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

open Idealize.ShloMosaic.ValueIdx

/-- The previous layer's output enters the product as it is. -/
theorem in2 : W5 m ρ c (Proc.devRef .tc main_v47) = Cert.ReferenceIdeal.Read.val_main_v46 (F := Ideal) x0 x1 x2 x3 := by
  show StableHlo.after hostOps2 (W4 m ρ c) (Proc.devRef .tc main_v47) = _
  after_results_simp
  rw [out1]
  rfl

/-- So does this layer's weight matrix, which nothing has written since the launch. -/
theorem w2 : W5 m ρ c (Proc.devRef .tc main_v48) = x4 := by
  show StableHlo.after hostOps2 (W4 m ρ c) (Proc.devRef .tc main_v48) = _
  after_results_simp
  rw [keep4 m ρ c (b := main_arg4) (by decide), W1_arg4]
  rfl

/-- The product region leaves the reference's product. -/
theorem lin2 : W6 m ρ c (Proc.devRef .tc main_v49) = Cert.ReferenceIdeal.Read.val_main_v47 (F := Ideal) x0 x1 x2 x3 x4 := by
  refine (W6_arr m ρ c 2).trans ((Cert.KernelIdeal.Linear2.final (V5 m ρ) c).trans ?_)
  show Cert.KernelIdeal.Linear2.whole (W5 m ρ c (Proc.devRef .tc main_v47)) (W5 m ρ c (Proc.devRef .tc main_v48)) = _
  rw [in2, w2]
  rfl

/-- The rows gathered at the sources, weighted and summed into the destinations: the reference's aggregate. -/
theorem agg2 : W7 m ρ c (Proc.devRef .tc main_v62) = Cert.ReferenceIdeal.Read.val_main_v60 (F := Ideal) x0 x1 x2 x3 x4 := by
  show StableHlo.after hostOps3 (W6 m ρ c) (Proc.devRef .tc main_v62) = _
  after_results_simp
  rw [lin2, keep6 m ρ c (b := main_v3) (by decide), W1_src, keep6 m ρ c (b := main_v6) (by decide), W1_dst,
    keep6 m ρ c (b := main_v28) (by decide), W1_norm]
  rfl

/-- The bias row the region stages is the bias vector, entry for entry. -/
theorem brow2 (q : Fin 64) :
    (W7 m ρ c (Proc.devRef .tc main_v63) : S1x64.Idx → EReal) (ix2 (0 : Fin 1) q) = (x5 : S64.Idx → EReal) (ix1 q) := by
  show (StableHlo.after hostOps3 (W6 m ρ c) (Proc.devRef .tc main_v63) : S1x64.Idx → EReal) (ix2 (0 : Fin 1) q) = _
  after_results_simp
  rw [keep6 m ρ c (b := main_arg5) (by decide), W1_arg5]
  exact shapeCast_a_1a_apply _ _ _ _

/-- The bias region leaves the reference's layer output. -/
theorem out2 : W8 m ρ c (Proc.devRef .tc main_v64) = Cert.ReferenceIdeal.Read.val_main_v64 (F := Ideal) x0 x1 x2 x3 x4 x5 := by
  refine (W8_arr m ρ c 2).trans ((Cert.KernelIdeal.Bias2.final (V7 m ρ) c).trans ?_)
  have hA : Cert.KernelIdeal.Bias2.A (V7 m ρ) c = Cert.ReferenceIdeal.Read.val_main_v60 (F := Ideal) x0 x1 x2 x3 x4 := agg2 m ρ c
  have hB : ∀ q : Fin 64, Cert.KernelIdeal.Bias2.B (V7 m ρ) c (ix2 (0 : Fin 1) q) = (x5 : S64.Idx → EReal) (ix1 q) := brow2 m ρ c
  funext i
  show Cert.KernelIdeal.Bias2.G (Cert.KernelIdeal.Bias2.A (V7 m ρ) c) (Cert.KernelIdeal.Bias2.B (V7 m ρ) c) i = _
  simp only [Cert.KernelIdeal.Bias2.G]
  rw [hA, hB]
  rw [Cert.ReferenceIdeal.Read.val_main_v64_apply, Cert.ReferenceIdeal.Read.val_main_v63_apply, Cert.ReferenceIdeal.Read.val_main_v62_apply, Cert.ReferenceIdeal.Read.val_main_v61_apply, Cert.ReferenceIdeal.Read.val_main_call1_v0_apply, Cert.ReferenceIdeal.Read.val_main_call1_cst_apply]
  have e : Cert.ReferenceIdeal.Read.idx_main_v61 (Cert.ReferenceIdeal.Read.idx_main_v62 i) = ix1 (⟨(i 1).val, (i 1).isLt⟩ : Fin 64) :=
    funext fun a => Fin.ext (by match a with | ⟨0, _⟩ => rfl)
  rw [e]
  rfl

end Cert.Bridge

end
-- ==== Proof.Layer3.lean ====
/-
  Layer 3 of the network, end to end. The previous layer's output and this layer's weight matrix enter the kernel's blocked product unchanged (over the extended reals a change of float format is the identity);
  the product region leaves the product of the whole arrays, which is the reference's `dot_general`. The host stretch that
  follows gathers the product's rows at the source indices, scales them by the edge weights and sums them into the
  destination rows: the same operations, on the same index arrays and weights, as the reference's, so the aggregate is the
  reference's. The bias region then adds the bias row and cuts below at zero, entry by entry, as the reference does with its
  broadcast bias and its maximum with a zero array.
-/
import proofs.«156801_j31748398252155_1_alg».proof.Proof.Gen.KernelIdeal.Frame
import proofs.«156801_j31748398252155_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import proofs.«156801_j31748398252155_1_alg».proof.Proof.Carry
import proofs.«156801_j31748398252155_1_alg».proof.Proof.Linear3
import proofs.«156801_j31748398252155_1_alg».proof.Proof.Bias3
import proofs.«156801_j31748398252155_1_alg».proof.Proof.Layer2

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

open Idealize.ShloMosaic.ValueIdx

/-- The previous layer's output enters the product as it is. -/
theorem in3 : W9 m ρ c (Proc.devRef .tc main_v65) = Cert.ReferenceIdeal.Read.val_main_v64 (F := Ideal) x0 x1 x2 x3 x4 x5 := by
  show StableHlo.after hostOps4 (W8 m ρ c) (Proc.devRef .tc main_v65) = _
  after_results_simp
  rw [out2]
  rfl

/-- So does this layer's weight matrix, which nothing has written since the launch. -/
theorem w3 : W9 m ρ c (Proc.devRef .tc main_v66) = x6 := by
  show StableHlo.after hostOps4 (W8 m ρ c) (Proc.devRef .tc main_v66) = _
  after_results_simp
  rw [keep8 m ρ c (b := main_arg6) (by decide), W1_arg6]
  rfl

/-- The product region leaves the reference's product. -/
theorem lin3 : W10 m ρ c (Proc.devRef .tc main_v67) = Cert.ReferenceIdeal.Read.val_main_v65 (F := Ideal) x0 x1 x2 x3 x4 x5 x6 := by
  refine (W10_arr m ρ c 2).trans ((Cert.KernelIdeal.Linear3.final (V9 m ρ) c).trans ?_)
  show Cert.KernelIdeal.Linear3.whole (W9 m ρ c (Proc.devRef .tc main_v65)) (W9 m ρ c (Proc.devRef .tc main_v66)) = _
  rw [in3, w3]
  rfl

/-- The rows gathered at the sources, weighted and summed into the destinations: the reference's aggregate. -/
theorem agg3 : W11 m ρ c (Proc.devRef .tc main_v80) = Cert.ReferenceIdeal.Read.val_main_v78 (F := Ideal) x0 x1 x2 x3 x4 x5 x6 := by
  show StableHlo.after hostOps5 (W10 m ρ c) (Proc.devRef .tc main_v80) = _
  after_results_simp
  rw [lin3, keep10 m ρ c (b := main_v3) (by decide), W1_src, keep10 m ρ c (b := main_v6) (by decide), W1_dst,
    keep10 m ρ c (b := main_v28) (by decide), W1_norm]
  rfl

/-- The bias row the region stages is the bias vector, entry for entry. -/
theorem brow3 (q : Fin 256) :
    (W11 m ρ c (Proc.devRef .tc main_v81) : S1x256.Idx → EReal) (ix2 (0 : Fin 1) q) = (x7 : S256.Idx → EReal) (ix1 q) := by
  show (StableHlo.after hostOps5 (W10 m ρ c) (Proc.devRef .tc main_v81) : S1x256.Idx → EReal) (ix2 (0 : Fin 1) q) = _
  after_results_simp
  rw [keep10 m ρ c (b := main_arg7) (by decide), W1_arg7]
  exact shapeCast_a_1a_apply _ _ _ _

/-- The bias region leaves the reference's layer output. -/
theorem out3 : W12 m ρ c (Proc.devRef .tc main_v82) = Cert.ReferenceIdeal.Read.val_main_v82 (F := Ideal) x0 x1 x2 x3 x4 x5 x6 x7 := by
  refine (W12_arr m ρ c 2).trans ((Cert.KernelIdeal.Bias3.final (V11 m ρ) c).trans ?_)
  have hA : Cert.KernelIdeal.Bias3.A (V11 m ρ) c = Cert.ReferenceIdeal.Read.val_main_v78 (F := Ideal) x0 x1 x2 x3 x4 x5 x6 := agg3 m ρ c
  have hB : ∀ q : Fin 256, Cert.KernelIdeal.Bias3.B (V11 m ρ) c (ix2 (0 : Fin 1) q) = (x7 : S256.Idx → EReal) (ix1 q) := brow3 m ρ c
  funext i
  show Cert.KernelIdeal.Bias3.G (Cert.KernelIdeal.Bias3.A (V11 m ρ) c) (Cert.KernelIdeal.Bias3.B (V11 m ρ) c) i = _
  simp only [Cert.KernelIdeal.Bias3.G]
  rw [hA, hB]
  rw [Cert.ReferenceIdeal.Read.val_main_v82_apply, Cert.ReferenceIdeal.Read.val_main_v81_apply, Cert.ReferenceIdeal.Read.val_main_v80_apply, Cert.ReferenceIdeal.Read.val_main_v79_apply, Cert.ReferenceIdeal.Read.val_main_call2_v0_apply, Cert.ReferenceIdeal.Read.val_main_call2_cst_apply]
  have e : Cert.ReferenceIdeal.Read.idx_main_v79 (Cert.ReferenceIdeal.Read.idx_main_v80 i) = ix1 (⟨(i 1).val, (i 1).isLt⟩ : Fin 256) :=
    funext fun a => Fin.ext (by match a with | ⟨0, _⟩ => rfl)
  rw [e]
  rfl

end Cert.Bridge

end
-- ==== Proof.Layer4.lean ====
/-
  Layer 4 of the network, end to end. The previous layer's output and this layer's weight matrix enter the kernel's blocked product unchanged (over the extended reals a change of float format is the identity);
  the product region leaves the product of the whole arrays, which is the reference's `dot_general`. The host stretch that
  follows gathers the product's rows at the source indices, scales them by the edge weights and sums them into the
  destination rows: the same operations, on the same index arrays and weights, as the reference's, so the aggregate is the
  reference's. The bias region then adds the bias row, entry by entry, as the reference does with its
  broadcast bias.
-/
import proofs.«156801_j31748398252155_1_alg».proof.Proof.Gen.KernelIdeal.Frame
import proofs.«156801_j31748398252155_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import proofs.«156801_j31748398252155_1_alg».proof.Proof.Carry
import proofs.«156801_j31748398252155_1_alg».proof.Proof.Linear4
import proofs.«156801_j31748398252155_1_alg».proof.Proof.Bias4
import proofs.«156801_j31748398252155_1_alg».proof.Proof.Layer3

noncomputable section

namespace Cert.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

open Idealize.ShloMosaic.ValueIdx

/-- The previous layer's output enters the product as it is. -/
theorem in4 : W13 m ρ c (Proc.devRef .tc main_v83) = Cert.ReferenceIdeal.Read.val_main_v82 (F := Ideal) x0 x1 x2 x3 x4 x5 x6 x7 := by
  show StableHlo.after hostOps6 (W12 m ρ c) (Proc.devRef .tc main_v83) = _
  after_results_simp
  rw [out3]
  rfl

/-- So does this layer's weight matrix, which nothing has written since the launch. -/
theorem w4 : W13 m ρ c (Proc.devRef .tc main_v84) = x8 := by
  show StableHlo.after hostOps6 (W12 m ρ c) (Proc.devRef .tc main_v84) = _
  after_results_simp
  rw [keep12 m ρ c (b := main_arg8) (by decide), W1_arg8]
  rfl

/-- The product region leaves the reference's product. -/
theorem lin4 : W14 m ρ c (Proc.devRef .tc main_v85) = Cert.ReferenceIdeal.Read.val_main_v83 (F := Ideal) x0 x1 x2 x3 x4 x5 x6 x7 x8 := by
  refine (W14_arr m ρ c 2).trans ((Cert.KernelIdeal.Linear4.final (V13 m ρ) c).trans ?_)
  show Cert.KernelIdeal.Linear4.whole (W13 m ρ c (Proc.devRef .tc main_v83)) (W13 m ρ c (Proc.devRef .tc main_v84)) = _
  rw [in4, w4]
  rfl

/-- The rows gathered at the sources, weighted and summed into the destinations: the reference's aggregate. -/
theorem agg4 : W15 m ρ c (Proc.devRef .tc main_v98) = Cert.ReferenceIdeal.Read.val_main_v96 (F := Ideal) x0 x1 x2 x3 x4 x5 x6 x7 x8 := by
  show StableHlo.after hostOps7 (W14 m ρ c) (Proc.devRef .tc main_v98) = _
  after_results_simp
  rw [lin4, keep14 m ρ c (b := main_v3) (by decide), W1_src, keep14 m ρ c (b := main_v6) (by decide), W1_dst,
    keep14 m ρ c (b := main_v28) (by decide), W1_norm]
  rfl

/-- The bias row the region stages is the bias vector, entry for entry. -/
theorem brow4 (q : Fin 128) :
    (W15 m ρ c (Proc.devRef .tc main_v99) : S1x128.Idx → EReal) (ix2 (0 : Fin 1) q) = (x9 : S128.Idx → EReal) (ix1 q) := by
  show (StableHlo.after hostOps7 (W14 m ρ c) (Proc.devRef .tc main_v99) : S1x128.Idx → EReal) (ix2 (0 : Fin 1) q) = _
  after_results_simp
  rw [keep14 m ρ c (b := main_arg9) (by decide), W1_arg9]
  exact shapeCast_a_1a_apply _ _ _ _

/-- The bias region leaves the reference's layer output. -/
theorem out4 : W16 m ρ c (Proc.devRef .tc main_v100) = Cert.ReferenceIdeal.Read.val_main_v99 (F := Ideal) x0 x1 x2 x3 x4 x5 x6 x7 x8 x9 := by
  refine (W16_arr m ρ c 2).trans ((Cert.KernelIdeal.Bias4.final (V15 m ρ) c).trans ?_)
  have hA : Cert.KernelIdeal.Bias4.A (V15 m ρ) c = Cert.ReferenceIdeal.Read.val_main_v96 (F := Ideal) x0 x1 x2 x3 x4 x5 x6 x7 x8 := agg4 m ρ c
  have hB : ∀ q : Fin 128, Cert.KernelIdeal.Bias4.B (V15 m ρ) c (ix2 (0 : Fin 1) q) = (x9 : S128.Idx → EReal) (ix1 q) := brow4 m ρ c
  funext i
  show Cert.KernelIdeal.Bias4.G (Cert.KernelIdeal.Bias4.A (V15 m ρ) c) (Cert.KernelIdeal.Bias4.B (V15 m ρ) c) i = _
  simp only [Cert.KernelIdeal.Bias4.G]
  rw [hA, hB]
  rw [Cert.ReferenceIdeal.Read.val_main_v99_apply, Cert.ReferenceIdeal.Read.val_main_v98_apply, Cert.ReferenceIdeal.Read.val_main_v97_apply]
  have e : Cert.ReferenceIdeal.Read.idx_main_v97 (Cert.ReferenceIdeal.Read.idx_main_v98 i) = ix1 (⟨(i 1).val, (i 1).isLt⟩ : Fin 128) :=
    funext fun a => Fin.ext (by match a with | ⟨0, _⟩ => rfl)
  rw [e]
  rfl

end Cert.Bridge

end
-- ==== Proof.lean ====
/-
  The kernel and the reference are the same four-layer graph convolution. Each layer multiplies the node features by a
  weight matrix, gathers the product's rows at the edges' source nodes, scales each by the edge's normalisation weight,
  sums them into the destination nodes' rows, adds a bias row and (but for the last layer) cuts below at zero. The index
  arrays and the weights are computed from the edge list by the same host operations in both programs, and so are the
  gather, the scaling and the summation. The two programs differ in two places per layer: the kernel takes the product
  block by block, 5000 rows at a time, on operands rounded to a narrower float format, where the reference takes one whole
  product; and the kernel adds the bias and takes the maximum inside a block, where the reference broadcasts the bias and
  a zero array. Over the extended reals a change of float format is the identity and an entry of a product is a plain sum
  of products whichever rows it is computed with, so block by block the kernel's arrays are the reference's, and the two
  results are one function of the arguments. No law used here fails at an infinity, so the precondition is never opened.

  The kernel's program is a sequence of sixteen segments; the contents of the buffers at each boundary is a fold over the
  launch memory, and the result array is read off the last boundary (KernelRun). The eight regions' arrays are read as
  whole-array functions of what each region found (Linear1 … Linear4, Bias1 … Bias4); the carried index arrays, weights and
  arguments in Carry; the layers are chained in Layer1 … Layer4.
-/
import proofs.«156801_j31748398252155_1_alg».proof.Defs
import proofs.«156801_j31748398252155_1_alg».proof.Proof.Gen.Kernel
import proofs.«156801_j31748398252155_1_alg».proof.Proof.Gen.Kernel.Frame
import proofs.«156801_j31748398252155_1_alg».proof.Proof.Gen.KernelIdeal
import proofs.«156801_j31748398252155_1_alg».proof.Proof.Gen.KernelIdeal.Frame
import proofs.«156801_j31748398252155_1_alg».proof.Proof.Gen.ReferenceIdeal
import proofs.«156801_j31748398252155_1_alg».proof.Proof.Gen.Pre_finite_inputs
import proofs.«156801_j31748398252155_1_alg».proof.Proof.Gen.ReferenceIdeal.Run
import proofs.«156801_j31748398252155_1_alg».proof.Proof.Gen.ReferenceIdeal.Read
import proofs.«156801_j31748398252155_1_alg».proof.Proof.KernelRun
import proofs.«156801_j31748398252155_1_alg».proof.Proof.Layer4
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- From memories that agree on the arguments both programs end, with the same result array: the reference's last stage
    as a function of the arguments, which the kernel's last region leaves (Layer4) and the reference's run computes. -/
theorem algebraic : Cert.algebraic_KernelIdeal_ReferenceIdeal := by
  intro m ρ m' ρ' _ hagree
  refine ⟨fun c => Cert.ReferenceIdeal.Read.val_main_v99 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Bridge.out4 m ρ c), (h c).2⟩)
      (Cert.KernelIdeal.GenR.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v99_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
